-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x49x256 : Shape := ⟨4, ![16, 256, 49, 256]⟩
abbrev S768x256 : Shape := ⟨2, ![768, 256]⟩
abbrev S169x8 : Shape := ⟨2, ![169, 8]⟩
abbrev S256x256 : Shape := ⟨2, ![256, 256]⟩
abbrev S49x49 : Shape := ⟨2, ![49, 49]⟩
abbrev S_ : Shape := ⟨0, ![]⟩

class Facts : Prop where
  bcast_S_S16x256x49x256 : S_.BroadcastsInDim S16x256x49x256 (![] : Fin 0 → Fin S16x256x49x256.rank)
  reducesTo_S16x256x49x256_S_d0_1_2_3 : S16x256x49x256.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S169x8 : S_.BroadcastsInDim S169x8 (![] : Fin 0 → Fin S169x8.rank)
  reducesTo_S169x8_S_d0_1 : S169x8.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S16x256x49x256 .f32) (main_arg1 : FVec F S768x256 .f32) (main_arg2 : FVec F S169x8 .f32) (main_arg3 : FVec F S256x256 .f32) (main_arg4 : IVec S49x49 32) : IVec S_ 1 :=
  let main_v0 : FVec F S16x256x49x256 .f32 := Host.absf main_arg0
  let main_cst : FVec F S_ .f32 := constant S_ .f32 0x7F800000#32
  let main_v1 : FVec F S16x256x49x256 .f32 := broadcastInDim S16x256x49x256 ![] bcast_S_S16x256x49x256 main_cst
  let main_v2 : IVec S16x256x49x256 1 := cmpf .olt main_v0 main_v1
  let main_c : IVec S_ 1 := constantI S_ 1 1#1
  let main_v3 : IVec S_ 1 := (fun x v => Host.reduce IntOp.andi x v reducesTo_S16x256x49x256_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S169x8 .f32 := Host.absf main_arg2
  let main_cst_2 : FVec F S_ .f32 := constant S_ .f32 0x7F800000#32
  let main_v10 : FVec F S169x8 .f32 := broadcastInDim S169x8 ![] bcast_S_S169x8 main_cst_2
  let main_v11 : IVec S169x8 1 := cmpf .olt main_v9 main_v10
  let main_c_3 : IVec S_ 1 := constantI S_ 1 1#1
  let main_v12 : IVec S_ 1 := (fun x v => Host.reduce IntOp.andi x v reducesTo_S169x8_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S16x256x49x256 : Shape := ⟨4, ![16, 256, 49, 256]⟩
abbrev S768x256 : Shape := ⟨2, ![768, 256]⟩
abbrev S169x8 : Shape := ⟨2, ![169, 8]⟩
abbrev S256x256 : Shape := ⟨2, ![256, 256]⟩
abbrev S49x49 : Shape := ⟨2, ![49, 49]⟩
abbrev S4096x49x256 : Shape := ⟨3, ![4096, 49, 256]⟩
abbrev S256x768 : Shape := ⟨2, ![256, 768]⟩
abbrev S_ : Shape := ⟨0, ![]⟩
abbrev S49x49x1 : Shape := ⟨3, ![49, 49, 1]⟩
abbrev S49x49x8 : Shape := ⟨3, ![49, 49, 8]⟩
abbrev S8x49x49 : Shape := ⟨3, ![8, 49, 49]⟩
abbrev S16x49x256 : Shape := ⟨3, ![16, 49, 256]⟩
abbrev S784x256 : Shape := ⟨2, ![784, 256]⟩
abbrev S784x768 : Shape := ⟨2, ![784, 768]⟩
abbrev S784x32 : Shape := ⟨2, ![784, 32]⟩
abbrev S16x49x32 : Shape := ⟨3, ![16, 49, 32]⟩
abbrev S16x49x49 : Shape := ⟨3, ![16, 49, 49]⟩
abbrev S1x49x49 : Shape := ⟨3, ![1, 49, 49]⟩
abbrev S16x49 : Shape := ⟨2, ![16, 49]⟩
abbrev S16x49x1 : Shape := ⟨3, ![16, 49, 1]⟩

abbrev nBuf : Space → Nat
  | .hbm => 22
  | .vmem => 7
  | .smem => 0
  | _ => 0

abbrev bufTy : (tb : Table) → Fin (tcTables nBuf tb) → BufTy
  | .hbm, ⟨0, _⟩ => ⟨S16x256x49x256, .f32⟩
  | .hbm, ⟨1, _⟩ => ⟨S768x256, .f32⟩
  | .hbm, ⟨2, _⟩ => ⟨S169x8, .f32⟩
  | .hbm, ⟨3, _⟩ => ⟨S256x256, .f32⟩
  | .hbm, ⟨4, _⟩ => ⟨S49x49, .i32⟩
  | .hbm, ⟨5, _⟩ => ⟨S4096x49x256, .f32⟩
  | .hbm, ⟨6, _⟩ => ⟨S256x768, .f32⟩
  | .hbm, ⟨7, _⟩ => ⟨S256x768, .bf16⟩
  | .hbm, ⟨8, _⟩ => ⟨S256x256, .f32⟩
  | .hbm, ⟨9, _⟩ => ⟨S256x256, .bf16⟩
  | .hbm, ⟨10, _⟩ => ⟨S_, .i32⟩
  | .hbm, ⟨11, _⟩ => ⟨S49x49, .i32⟩
  | .hbm, ⟨12, _⟩ => ⟨S49x49, .i1⟩
  | .hbm, ⟨13, _⟩ => ⟨S_, .i32⟩
  | .hbm, ⟨14, _⟩ => ⟨S49x49, .i32⟩
  | .hbm, ⟨15, _⟩ => ⟨S49x49, .i32⟩
  | .hbm, ⟨16, _⟩ => ⟨S49x49, .i32⟩
  | .hbm, ⟨17, _⟩ => ⟨S49x49x1, .i32⟩
  | .hbm, ⟨18, _⟩ => ⟨S49x49x8, .f32⟩
  | .hbm, ⟨19, _⟩ => ⟨S8x49x49, .f32⟩
  | .hbm, ⟨20, _⟩ => ⟨S4096x49x256, .f32⟩
  | .hbm, ⟨21, _⟩ => ⟨S16x256x49x256, .f32⟩
  | .local _ .vmem, ⟨0, _⟩ => ⟨S16x49x256, .f32⟩
  | .local _ .vmem, ⟨1, _⟩ => ⟨S16x49x256, .f32⟩
  | .local _ .vmem, ⟨2, _⟩ => ⟨S256x768, .bf16⟩
  | .local _ .vmem, ⟨3, _⟩ => ⟨S256x256, .bf16⟩
  | .local _ .vmem, ⟨4, _⟩ => ⟨S8x49x49, .f32⟩
  | .local _ .vmem, ⟨5, _⟩ => ⟨S16x49x256, .f32⟩
  | .local _ .vmem, ⟨6, _⟩ => ⟨S16x49x256, .f32⟩
  | _, _ => ⟨S16x256x49x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x49x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x256x49x256_S4096x49x256 : S16x256x49x256.ShapeCasts S4096x49x256
  transposes_S768x256_S256x768_1_0 : S768x256.Transposes [1, 0] S256x768
  bitsLt_bf16_f32 : FTy.bits .bf16 < FTy.bits .f32
  transposes_S256x256_S256x256_1_0 : S256x256.Transposes [1, 0] S256x256
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x8_S8x49x49_2_0_1 : S49x49x8.Transposes [2, 0, 1] S8x49x49
  inb_S16x49x256_S16x49x256_0_0_0 : ∀ a, (![0, 0, 0] : Fin 3 → Nat) a + S16x49x256.size a ≤ S16x49x256.size a
  h_S16x49x256 : 0 < S16x49x256.numel
  shapeCasts_S16x49x256_S16x49x256 : S16x49x256.ShapeCasts S16x49x256
  shapeCasts_S16x49x256_S784x256 : S16x49x256.ShapeCasts S784x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S784x768_o0_0_S784x256 : S784x768.Slices ![0, 0] S784x256
  slices_S784x768_o0_256_S784x256 : S784x768.Slices ![0, 256] S784x256
  slices_S784x768_o0_512_S784x256 : S784x768.Slices ![0, 512] S784x256
  slices_S784x256_o0_0_S784x32 : S784x256.Slices ![0, 0] S784x32
  shapeCasts_S784x32_S16x49x32 : S784x32.ShapeCasts S16x49x32
  inb_S8x49x49_S1x49x49_0_0_0 : ∀ a, (![0, 0, 0] : Fin 3 → Nat) a + S1x49x49.size a ≤ S8x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S16x49x49 : S1x49x49.Broadcasts S16x49x49
  reduces_S16x49x49_S16x49 : S16x49x49.Reduces [2] S16x49
  shapeCasts_S16x49_S16x49x1 : S16x49.ShapeCasts S16x49x1
  broadcasts_S16x49x1_S16x49x49 : S16x49x1.Broadcasts S16x49x49
  slices_S784x256_o0_32_S784x32 : S784x256.Slices ![0, 32] S784x32
  inb_S8x49x49_S1x49x49_1_0_0 : ∀ a, (![1, 0, 0] : Fin 3 → Nat) a + S1x49x49.size a ≤ S8x49x49.size a
  slices_S784x256_o0_64_S784x32 : S784x256.Slices ![0, 64] S784x32
  inb_S8x49x49_S1x49x49_2_0_0 : ∀ a, (![2, 0, 0] : Fin 3 → Nat) a + S1x49x49.size a ≤ S8x49x49.size a
  slices_S784x256_o0_96_S784x32 : S784x256.Slices ![0, 96] S784x32
  inb_S8x49x49_S1x49x49_3_0_0 : ∀ a, (![3, 0, 0] : Fin 3 → Nat) a + S1x49x49.size a ≤ S8x49x49.size a
  slices_S784x256_o0_128_S784x32 : S784x256.Slices ![0, 128] S784x32
  inb_S8x49x49_S1x49x49_4_0_0 : ∀ a, (![4, 0, 0] : Fin 3 → Nat) a + S1x49x49.size a ≤ S8x49x49.size a
  slices_S784x256_o0_160_S784x32 : S784x256.Slices ![0, 160] S784x32
  inb_S8x49x49_S1x49x49_5_0_0 : ∀ a, (![5, 0, 0] : Fin 3 → Nat) a + S1x49x49.size a ≤ S8x49x49.size a
  slices_S784x256_o0_192_S784x32 : S784x256.Slices ![0, 192] S784x32
  inb_S8x49x49_S1x49x49_6_0_0 : ∀ a, (![6, 0, 0] : Fin 3 → Nat) a + S1x49x49.size a ≤ S8x49x49.size a
  slices_S784x256_o0_224_S784x32 : S784x256.Slices ![0, 224] S784x32
  inb_S8x49x49_S1x49x49_7_0_0 : ∀ a, (![7, 0, 0] : Fin 3 → Nat) a + S1x49x49.size a ≤ S8x49x49.size a
  concatenates_S16x49x32_S16x49x32_S16x49x32_S16x49x32_S16x49x32_S16x49x32_S16x49x32_S16x49x32_S16x49x256_d2 : Shape.Concatenates [S16x49x32, S16x49x32, S16x49x32, S16x49x32, S16x49x32, S16x49x32, S16x49x32, S16x49x32] S16x49x256 2
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S784x256_S16x49x256 : S784x256.ShapeCasts S16x49x256
  shapeCasts_S4096x49x256_S16x256x49x256 : S4096x49x256.ShapeCasts S16x256x49x256
  gather_S169x8_S49x49x1_S49x49x8_2_0_n_n_0_2_18_wf : GatherDims.WF S169x8 S49x49x1 S49x49x8 [2] [0] [] [0] [] 2 ![1, 8]
  dot_S784x256_S256x768_S784x768_1_0_0_1_n_n_wf : DotDims.WF S784x256 S256x768 S784x768 [1] [0] [0] [1] [] []
  dot_S16x49x32_S16x49x32_S16x49x49_2_2_1_1_0_0_wf : DotDims.WF S16x49x32 S16x49x32 S16x49x49 [2] [2] [1] [1] [0] [0]
  dot_S16x49x49_S16x49x32_S16x49x32_2_1_1_2_0_0_wf : DotDims.WF S16x49x49 S16x49x32 S16x49x32 [2] [1] [1] [2] [0] [0]
  dot_S784x256_S256x256_S784x256_1_0_0_1_n_n_wf : DotDims.WF S784x256 S256x256 S784x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x49x256.size a ≤ S4096x49x256.size a
  hwx0_0 : ∀ i : grid0.Coords, EltTy.bits .f32 = 32 ∨ (Rect.block (s := S4096x49x256) S16x49x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x49x49.size a ≤ S8x49x49.size a
  hwx0_3 : ∀ i : grid0.Coords, EltTy.bits .f32 = 32 ∨ (Rect.block (s := S8x49x49) S8x49x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x49x256.size a ≤ S4096x49x256.size a
  hwx0_4 : ∀ i : grid0.Coords, EltTy.bits .f32 = 32 ∨ (Rect.block (s := S4096x49x256) S16x49x256.size (cc0_transform_4 i) (hinb0_4 i)).WholeWords (EltTy.packing .f32)

variable [Facts₀]

def gather_S169x8_S49x49x1_S49x49x8_2_0_n_n_0_2_18 : GatherDims S169x8 S49x49x1 S49x49x8 where
  offsetDims := [2]
  collapsedSliceDims := [0]
  operandBatchingDims := []
  startIndicesBatchingDims := []
  startIndexMap := [0]
  indexVectorDim := 2
  sliceSizes := ![1, 8]
  wf := gather_S169x8_S49x49x1_S49x49x8_2_0_n_n_0_2_18_wf
def dot_S784x256_S256x768_S784x768_1_0_0_1_n_n : DotDims S784x256 S256x768 S784x768 where
  lhsContracting := [1]
  rhsContracting := [0]
  lhsNonContracting := [0]
  rhsNonContracting := [1]
  lhsBatch := []
  rhsBatch := []
  wf := dot_S784x256_S256x768_S784x768_1_0_0_1_n_n_wf
def dot_S16x49x32_S16x49x32_S16x49x49_2_2_1_1_0_0 : DotDims S16x49x32 S16x49x32 S16x49x49 where
  lhsContracting := [2]
  rhsContracting := [2]
  lhsNonContracting := [1]
  rhsNonContracting := [1]
  lhsBatch := [0]
  rhsBatch := [0]
  wf := dot_S16x49x32_S16x49x32_S16x49x49_2_2_1_1_0_0_wf
def dot_S16x49x49_S16x49x32_S16x49x32_2_1_1_2_0_0 : DotDims S16x49x49 S16x49x32 S16x49x32 where
  lhsContracting := [2]
  rhsContracting := [1]
  lhsNonContracting := [1]
  rhsNonContracting := [2]
  lhsBatch := [0]
  rhsBatch := [0]
  wf := dot_S16x49x49_S16x49x32_S16x49x32_2_1_1_2_0_0_wf
def dot_S784x256_S256x256_S784x256_1_0_0_1_n_n : DotDims S784x256 S256x256 S784x256 where
  lhsContracting := [1]
  rhsContracting := [0]
  lhsNonContracting := [0]
  rhsNonContracting := [1]
  lhsBatch := []
  rhsBatch := []
  wf := dot_S784x256_S256x256_S784x256_1_0_0_1_n_n_wf

abbrev win0_0 : Pipeline.Window sig grid0 :=
  Pipeline.Window.ofSpec (Memref.whole main_v0) S16x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S16x49x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x49x256 : Shape := ⟨4, ![16, 256, 49, 256]⟩
abbrev S768x256 : Shape := ⟨2, ![768, 256]⟩
abbrev S169x8 : Shape := ⟨2, ![169, 8]⟩
abbrev S256x256 : Shape := ⟨2, ![256, 256]⟩
abbrev S49x49 : Shape := ⟨2, ![49, 49]⟩
abbrev S16x256x49x768 : Shape := ⟨4, ![16, 256, 49, 768]⟩
abbrev S16x256x49x3x8x32 : Shape := ⟨6, ![16, 256, 49, 3, 8, 32]⟩
abbrev S3x16x256x49x8x32 : Shape := ⟨6, ![3, 16, 256, 49, 8, 32]⟩
abbrev S3x16x256x8x49x32 : Shape := ⟨6, ![3, 16, 256, 8, 49, 32]⟩
abbrev S1x16x256x8x49x32 : Shape := ⟨6, ![1, 16, 256, 8, 49, 32]⟩
abbrev S16x256x8x49x32 : Shape := ⟨5, ![16, 256, 8, 49, 32]⟩
abbrev S16x256x8x49x49 : Shape := ⟨5, ![16, 256, 8, 49, 49]⟩
abbrev S_ : Shape := ⟨0, ![]⟩
abbrev S49x49x1 : Shape := ⟨3, ![49, 49, 1]⟩
abbrev S49x49x8 : Shape := ⟨3, ![49, 49, 8]⟩
abbrev S8x49x49 : Shape := ⟨3, ![8, 49, 49]⟩
abbrev S1x1x8x49x49 : Shape := ⟨5, ![1, 1, 8, 49, 49]⟩
abbrev S16x256x8x49 : Shape := ⟨4, ![16, 256, 8, 49]⟩
abbrev S16x256x8x49x1 : Shape := ⟨5, ![16, 256, 8, 49, 1]⟩
abbrev S16x256x49x8x32 : Shape := ⟨5, ![16, 256, 49, 8, 32]⟩

abbrev nBuf : Space → Nat
  | .hbm => 50
  | .vmem => 0
  | .smem => 0
  | _ => 0

abbrev bufTy : (tb : Table) → Fin (tcTables nBuf tb) → BufTy
  | .hbm, ⟨0, _⟩ => ⟨S16x256x49x256, .f32⟩
  | .hbm, ⟨1, _⟩ => ⟨S768x256, .f32⟩
  | .hbm, ⟨2, _⟩ => ⟨S169x8, .f32⟩
  | .hbm, ⟨3, _⟩ => ⟨S256x256, .f32⟩
  | .hbm, ⟨4, _⟩ => ⟨S49x49, .i32⟩
  | .hbm, ⟨5, _⟩ => ⟨S16x256x49x768, .f32⟩
  | .hbm, ⟨6, _⟩ => ⟨S16x256x49x3x8x32, .f32⟩
  | .hbm, ⟨7, _⟩ => ⟨S3x16x256x49x8x32, .f32⟩
  | .hbm, ⟨8, _⟩ => ⟨S3x16x256x8x49x32, .f32⟩
  | .hbm, ⟨9, _⟩ => ⟨S1x16x256x8x49x32, .f32⟩
  | .hbm, ⟨10, _⟩ => ⟨S16x256x8x49x32, .f32⟩
  | .hbm, ⟨11, _⟩ => ⟨S1x16x256x8x49x32, .f32⟩
  | .hbm, ⟨12, _⟩ => ⟨S16x256x8x49x32, .f32⟩
  | .hbm, ⟨13, _⟩ => ⟨S1x16x256x8x49x32, .f32⟩
  | .hbm, ⟨14, _⟩ => ⟨S16x256x8x49x32, .f32⟩
  | .hbm, ⟨15, _⟩ => ⟨S16x256x8x49x49, .f32⟩
  | .hbm, ⟨16, _⟩ => ⟨S_, .f32⟩
  | .hbm, ⟨17, _⟩ => ⟨S16x256x8x49x49, .f32⟩
  | .hbm, ⟨18, _⟩ => ⟨S16x256x8x49x49, .f32⟩
  | .hbm, ⟨19, _⟩ => ⟨S_, .i32⟩
  | .hbm, ⟨20, _⟩ => ⟨S49x49, .i32⟩
  | .hbm, ⟨21, _⟩ => ⟨S49x49, .i1⟩
  | .hbm, ⟨22, _⟩ => ⟨S_, .i32⟩
  | .hbm, ⟨23, _⟩ => ⟨S49x49, .i32⟩
  | .hbm, ⟨24, _⟩ => ⟨S49x49, .i32⟩
  | .hbm, ⟨25, _⟩ => ⟨S49x49, .i32⟩
  | .hbm, ⟨26, _⟩ => ⟨S49x49x1, .i32⟩
  | .hbm, ⟨27, _⟩ => ⟨S49x49x8, .f32⟩
  | .hbm, ⟨28, _⟩ => ⟨S8x49x49, .f32⟩
  | .hbm, ⟨29, _⟩ => ⟨S1x1x8x49x49, .f32⟩
  | .hbm, ⟨30, _⟩ => ⟨S16x256x8x49x49, .f32⟩
  | .hbm, ⟨31, _⟩ => ⟨S16x256x8x49x49, .f32⟩
  | .hbm, ⟨32, _⟩ => ⟨S_, .f32⟩
  | .hbm, ⟨33, _⟩ => ⟨S16x256x8x49, .f32⟩
  | .hbm, ⟨34, _⟩ => ⟨S_, .f32⟩
  | .hbm, ⟨35, _⟩ => ⟨S16x256x8x49, .f32⟩
  | .hbm, ⟨36, _⟩ => ⟨S16x256x8x49, .f32⟩
  | .hbm, ⟨37, _⟩ => ⟨S16x256x8x49x1, .f32⟩
  | .hbm, ⟨38, _⟩ => ⟨S16x256x8x49x49, .f32⟩
  | .hbm, ⟨39, _⟩ => ⟨S16x256x8x49x49, .f32⟩
  | .hbm, ⟨40, _⟩ => ⟨S16x256x8x49x49, .f32⟩
  | .hbm, ⟨41, _⟩ => ⟨S_, .f32⟩
  | .hbm, ⟨42, _⟩ => ⟨S16x256x8x49, .f32⟩
  | .hbm, ⟨43, _⟩ => ⟨S16x256x8x49x1, .f32⟩
  | .hbm, ⟨44, _⟩ => ⟨S16x256x8x49x49, .f32⟩
  | .hbm, ⟨45, _⟩ => ⟨S16x256x8x49x49, .f32⟩
  | .hbm, ⟨46, _⟩ => ⟨S16x256x8x49x32, .f32⟩
  | .hbm, ⟨47, _⟩ => ⟨S16x256x49x8x32, .f32⟩
  | .hbm, ⟨48, _⟩ => ⟨S16x256x49x256, .f32⟩
  | .hbm, ⟨49, _⟩ => ⟨S16x256x49x256, .f32⟩
  | _, _ => ⟨S16x256x49x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  shapeCasts_S16x256x49x768_S16x256x49x3x8x32 : S16x256x49x768.ShapeCasts S16x256x49x3x8x32
  transposes_S16x256x49x3x8x32_S3x16x256x49x8x32_3_0_1_2_4_5 : S16x256x49x3x8x32.Transposes [3, 0, 1, 2, 4, 5] S3x16x256x49x8x32
  transposes_S3x16x256x49x8x32_S3x16x256x8x49x32_0_1_2_4_3_5 : S3x16x256x49x8x32.Transposes [0, 1, 2, 4, 3, 5] S3x16x256x8x49x32
  slices_S3x16x256x8x49x32_S1x16x256x8x49x32_0_0_0_0_0_0 : S3x16x256x8x49x32.Slices ![0, 0, 0, 0, 0, 0] S1x16x256x8x49x32
  shapeCasts_S1x16x256x8x49x32_S16x256x8x49x32 : S1x16x256x8x49x32.ShapeCasts S16x256x8x49x32
  slices_S3x16x256x8x49x32_S1x16x256x8x49x32_1_0_0_0_0_0 : S3x16x256x8x49x32.Slices ![1, 0, 0, 0, 0, 0] S1x16x256x8x49x32
  slices_S3x16x256x8x49x32_S1x16x256x8x49x32_2_0_0_0_0_0 : S3x16x256x8x49x32.Slices ![2, 0, 0, 0, 0, 0] S1x16x256x8x49x32
  bcast_S_S16x256x8x49x49 : S_.BroadcastsInDim S16x256x8x49x49 (![] : Fin 0 → Fin S16x256x8x49x49.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x8_S8x49x49_2_0_1 : S49x49x8.Transposes [2, 0, 1] S8x49x49
  bcast_S8x49x49_S1x1x8x49x49_2_3_4 : S8x49x49.BroadcastsInDim S1x1x8x49x49 (![2, 3, 4] : Fin 3 → Fin S1x1x8x49x49.rank)
  bcast_S1x1x8x49x49_S16x256x8x49x49_0_1_2_3_4 : S1x1x8x49x49.BroadcastsInDim S16x256x8x49x49 (![0, 1, 2, 3, 4] : Fin 5 → Fin S16x256x8x49x49.rank)
  reducesTo_S16x256x8x49x49_S16x256x8x49_d4 : S16x256x8x49x49.ReducesTo [4] S16x256x8x49
  h_S_ : 0 < S_.numel
  bcast_S_S16x256x8x49 : S_.BroadcastsInDim S16x256x8x49 (![] : Fin 0 → Fin S16x256x8x49.rank)
  bcast_S16x256x8x49_S16x256x8x49x1_0_1_2_3 : S16x256x8x49.BroadcastsInDim S16x256x8x49x1 (![0, 1, 2, 3] : Fin 4 → Fin S16x256x8x49x1.rank)
  bcast_S16x256x8x49x1_S16x256x8x49x49_0_1_2_3_4 : S16x256x8x49x1.BroadcastsInDim S16x256x8x49x49 (![0, 1, 2, 3, 4] : Fin 5 → Fin S16x256x8x49x49.rank)
  transposes_S16x256x8x49x32_S16x256x49x8x32_0_1_3_2_4 : S16x256x8x49x32.Transposes [0, 1, 3, 2, 4] S16x256x49x8x32
  shapeCasts_S16x256x49x8x32_S16x256x49x256 : S16x256x49x8x32.ShapeCasts S16x256x49x256
  dot_S16x256x49x256_S768x256_S16x256x49x768_3_1_012_0_n_n_wf : DotDims.WF S16x256x49x256 S768x256 S16x256x49x768 [3] [1] [0, 1, 2] [0] [] []
  dot_S16x256x8x49x32_S16x256x8x49x32_S16x256x8x49x49_4_4_3_3_012_012_wf : DotDims.WF S16x256x8x49x32 S16x256x8x49x32 S16x256x8x49x49 [4] [4] [3] [3] [0, 1, 2] [0, 1, 2]
  gather_S169x8_S49x49x1_S49x49x8_2_0_n_n_0_2_18_wf : GatherDims.WF S169x8 S49x49x1 S49x49x8 [2] [0] [] [0] [] 2 ![1, 8]
  dot_S16x256x8x49x49_S16x256x8x49x32_S16x256x8x49x32_4_3_3_4_012_012_wf : DotDims.WF S16x256x8x49x49 S16x256x8x49x32 S16x256x8x49x32 [4] [3] [3] [4] [0, 1, 2] [0, 1, 2]
  dot_S16x256x49x256_S256x256_S16x256x49x256_3_1_012_0_n_n_wf : DotDims.WF S16x256x49x256 S256x256 S16x256x49x256 [3] [1] [0, 1, 2] [0] [] []

variable [Facts₀]

def dot_S16x256x49x256_S768x256_S16x256x49x768_3_1_012_0_n_n : DotDims S16x256x49x256 S768x256 S16x256x49x768 where
  lhsContracting := [3]
  rhsContracting := [1]
  lhsNonContracting := [0, 1, 2]
  rhsNonContracting := [0]
  lhsBatch := []
  rhsBatch := []
  wf := dot_S16x256x49x256_S768x256_S16x256x49x768_3_1_012_0_n_n_wf
def dot_S16x256x8x49x32_S16x256x8x49x32_S16x256x8x49x49_4_4_3_3_012_012 : DotDims S16x256x8x49x32 S16x256x8x49x32 S16x256x8x49x49 where
  lhsContracting := [4]
  rhsContracting := [4]
  lhsNonContracting := [3]
  rhsNonContracting := [3]
  lhsBatch := [0, 1, 2]
  rhsBatch := [0, 1, 2]
  wf := dot_S16x256x8x49x32_S16x256x8x49x32_S16x256x8x49x49_4_4_3_3_012_012_wf
def gather_S169x8_S49x49x1_S49x49x8_2_0_n_n_0_2_18 : GatherDims S169x8 S49x49x1 S49x49x8 where
  offsetDims := [2]
  collapsedSliceDims := [0]
  operandBatchingDims := []
  startIndicesBatchingDims := []
  startIndexMap := [0]
  indexVectorDim := 2
  sliceSizes := ![1, 8]
  wf := gather_S169x8_S49x49x1_S49x49x8_2_0_n_n_0_2_18_wf
def dot_S16x256x8x49x49_S16x256x8x49x32_S16x256x8x49x32_4_3_3_4_012_012 : DotDims S16x256x8x49x49 S16x256x8x49x32 S16x256x8x49x32 where
  lhsContracting := [4]
  rhsContracting := [3]
  lhsNonContracting := [3]
  rhsNonContracting := [4]
  lhsBatch := [0, 1, 2]
  rhsBatch := [0, 1, 2]
  wf := dot_S16x256x8x49x49_S16x256x8x49x32_S16x256x8x49x32_4_3_3_4_012_012_wf
def dot_S16x256x49x256_S256x256_S16x256x49x256_3_1_012_0_n_n : DotDims S16x256x49x256 S256x256 S16x256x49x256 where
  lhsContracting := [3]
  rhsContracting := [1]
  lhsNonContracting := [0, 1, 2]
  rhsNonContracting := [0]
  lhsBatch := []
  rhsBatch := []
  wf := dot_S16x256x49x256_S256x256_S16x256x49x256_3_1_012_0_n_n_wf

class Facts : Prop extends Facts₀ where

variable [Facts]
-- ==== Proof.KernelTile.lean ====
/-
  One grid step of the kernel works on a tile of 16 windows.  Its stored value is written here as a composition
  of named pieces: the three 784 × 256 arrays of (scaled) queries, keys and values — rows are window · 49 + token —,
  for each of the eight heads the 32 columns it owns, viewed as windows × tokens × 32; the head's scores
  (query–key inner products plus the head's bias), exp of the scores less their row maximum, the rows divided
  by their sums, and those weights times the values; and the eight heads' outputs side by side times the output
  matrix.  The body's stored value is this composition, by unfolding.
-/
import proofs.«144305_j62362925138373_2_alg».proof.Proof.Gen.KernelIdeal.Skeleton

set_option synthInstance.maxSize 4096

noncomputable section

namespace Cert.KernelIdeal.Tile

open Cert.KernelIdeal Cert.KernelIdeal.Gen Idealize.ShloMosaic Idealize.SL.Sem

variable {F : FTy → Type} [FloatOps F]

/-- Columns off … off + 31 of an array with 784 rows (16 windows × 49 tokens), as windows × tokens × 32. -/
def pieceK (X : FVec F S784x256 .f32) (off : ℕ) (hs : S784x256.Slices ![0, off] S784x32) : FVec F S16x49x32 .bf16 :=
  truncf .bf16 (shapeCast S16x49x32 (extractStridedSlice S784x32 ![0, off] X hs) shapeCasts_S784x32_S16x49x32) bitsLt_bf16_f32

/-- Scores of one head on a tile: query–key inner products plus the head's bias, the same for every window. -/
def scoresK (q k : FVec F S16x49x32 .bf16) (b : Vec F S1x49x49 .f32) : FVec F S16x49x49 .f32 :=
  addf (matmul dot_S16x49x32_S16x49x32_S16x49x49_2_2_1_1_0_0 none q k (constant S16x49x49 .f32 0x00000000#32))
    (broadcastTo S16x49x49 (shapeCast S1x49x49 (shapeCast S49x49 b shapeCasts_S1x49x49_S49x49) shapeCasts_S49x49_S1x49x49) broadcasts_S1x49x49_S16x49x49)

/-- exp (s − row maximum). -/
def expsK (s : FVec F S16x49x49 .f32) : FVec F S16x49x49 .f32 :=
  exp (subf s (broadcastTo S16x49x49 (shapeCast S16x49x1 (multiReduction .maximumf [2] S16x49 s 0xFF800000#32 reduces_S16x49x49_S16x49 (.inl rfl) rfl) shapeCasts_S16x49_S16x49x1) broadcasts_S16x49x1_S16x49x49))

/-- Each row divided by its sum. -/
def probsK (e : FVec F S16x49x49 .f32) : FVec F S16x49x49 .bf16 :=
  truncf .bf16 (divf e (broadcastTo S16x49x49 (shapeCast S16x49x1 (multiReduction .add [2] S16x49 e 0x00000000#32 reduces_S16x49x49_S16x49 (.inl rfl) rfl) shapeCasts_S16x49_S16x49x1) broadcasts_S16x49x1_S16x49x49)) bitsLt_bf16_f32

/-- One head on a tile of 16 windows: the weights times the values. -/
def headK (q k v : FVec F S16x49x32 .bf16) (b : Vec F S1x49x49 .f32) : FVec F S16x49x32 .f32 :=
  matmul dot_S16x49x49_S16x49x32_S16x49x32_2_1_1_2_0_0 none (probsK (expsK (scoresK q k b))) v (constant S16x49x32 .f32 0x00000000#32)

/-- Head number `off / 32` from the full query, key and value arrays. -/
def headAt (Q K V : FVec F S784x256 .f32) (off : ℕ) (hs : S784x256.Slices ![0, off] S784x32) (b : Vec F S1x49x49 .f32) : FVec F S16x49x32 .f32 :=
  headK (pieceK Q off hs) (pieceK K off hs) (pieceK V off hs) b

/-- The tile's result from the eight heads' outputs: side by side along the last axis, times the output matrix. -/
def tileOut (H : Fin 8 → FVec F S16x49x32 .f32)
    (hc : Shape.Concatenates ((List.ofFn fun n : Fin 8 => (⟨S16x49x32, H n⟩ : (s : Shape) × (s.Idx → F .f32))).map (·.1)) S16x49x256 2)
    (wo : Vec F S256x256 .bf16) : FVec F S16x49x256 .f32 :=
  shapeCast S16x49x256 (matmul dot_S784x256_S256x256_S784x256_1_0_0_1_n_n none
    (truncf .bf16 (shapeCast S784x256 (concatenate S16x49x256 2 (List.ofFn fun n : Fin 8 => (⟨S16x49x32, H n⟩ : (s : Shape) × (s.Idx → F .f32))) hc) shapeCasts_S16x49x256_S784x256) bitsLt_bf16_f32)
    (shapeCast S256x256 wo shapeCasts_S256x256_S256x256) (constant S784x256 .f32 0x00000000#32)) shapeCasts_S784x256_S16x49x256

/-- The eight heads of a tile, from the loaded blocks. -/
def headsK (x0 : Vec F S16x49x256 .f32) (x1 : Vec F S256x768 .bf16) (b0 b1 b2 b3 b4 b5 b6 b7 : Vec F S1x49x49 .f32) : Fin 8 → FVec F S16x49x32 .f32 :=
  ![headAt (k0_pay2 x0 x1) (k0_pay3 x0 x1) (k0_pay4 x0 x1) 0 slices_S784x256_o0_0_S784x32 b0,
    headAt (k0_pay2 x0 x1) (k0_pay3 x0 x1) (k0_pay4 x0 x1) 32 slices_S784x256_o0_32_S784x32 b1,
    headAt (k0_pay2 x0 x1) (k0_pay3 x0 x1) (k0_pay4 x0 x1) 64 slices_S784x256_o0_64_S784x32 b2,
    headAt (k0_pay2 x0 x1) (k0_pay3 x0 x1) (k0_pay4 x0 x1) 96 slices_S784x256_o0_96_S784x32 b3,
    headAt (k0_pay2 x0 x1) (k0_pay3 x0 x1) (k0_pay4 x0 x1) 128 slices_S784x256_o0_128_S784x32 b4,
    headAt (k0_pay2 x0 x1) (k0_pay3 x0 x1) (k0_pay4 x0 x1) 160 slices_S784x256_o0_160_S784x32 b5,
    headAt (k0_pay2 x0 x1) (k0_pay3 x0 x1) (k0_pay4 x0 x1) 192 slices_S784x256_o0_192_S784x32 b6,
    headAt (k0_pay2 x0 x1) (k0_pay3 x0 x1) (k0_pay4 x0 x1) 224 slices_S784x256_o0_224_S784x32 b7]

set_option maxHeartbeats 1000000 in
/-- The body's stored value is the tile's result of the eight heads. -/
theorem payload_eq (x0 : Vec F S16x49x256 .f32) (x1 : Vec F S256x768 .bf16) (x2 : Vec F S256x256 .bf16) (b0 b1 b2 b3 b4 b5 b6 b7 : Vec F S1x49x49 .f32) :
    k0_pay21 (k0_pay2 x0 x1) (k0_pay3 x0 x1) (k0_pay4 x0 x1) (k0_pay5 x0 x1 b0) (k0_pay9 (k0_pay6 x0 x1) (k0_pay7 x0 x1) (k0_pay8 x0 x1) b1) (k0_pay10 (k0_pay2 x0 x1) (k0_pay3 x0 x1) (k0_pay4 x0 x1) b2) (k0_pay12 (k0_pay3 x0 x1) (k0_pay4 x0 x1) (k0_pay11 (k0_pay2 x0 x1)) b3) (k0_pay16 (k0_pay13 (k0_pay4 x0 x1)) (k0_pay14 (k0_pay2 x0 x1) (k0_pay3 x0 x1) b4) (k0_pay15 (k0_pay2 x0 x1) (k0_pay3 x0 x1) b4)) (k0_pay17 (k0_pay2 x0 x1) (k0_pay3 x0 x1) (k0_pay4 x0 x1) b5) (k0_pay18 (k0_pay4 x0 x1)) (k0_pay19 (k0_pay2 x0 x1) (k0_pay3 x0 x1) b6) (k0_pay20 (k0_pay2 x0 x1) (k0_pay3 x0 x1) b6) b7 x2
      = tileOut (headsK x0 x1 b0 b1 b2 b3 b4 b5 b6 b7) concatenates_S16x49x32_S16x49x32_S16x49x32_S16x49x32_S16x49x32_S16x49x32_S16x49x32_S16x49x32_S16x49x256_d2 x2 := rfl

end Cert.KernelIdeal.Tile

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.AttnSpec.lean ====
/-
  Windowed multi-head attention on the extended reals, one window of 49 tokens at a time.

  A window's tokens x (49 × 256) are projected by one 768 × 256 matrix into queries, keys and values: column
  s·256 + h·32 + d of the projection is coordinate d of head h in section s (0 queries, 1 keys, 2 values).  For head h
  the score of tokens (i, j) is the inner product of query i with key j, scaled by a constant c, plus a bias
  b (h, i, j).  Each row of scores is turned into weights exp (s_j − max s) / Σ_k exp (s_k − max s); the head's output
  at token i is the weighted sum of the values; the eight heads' outputs, side by side, are multiplied by a
  256 × 256 output matrix.

  Two arrangements of the scale are stated: folded into the queries, Σ_d (q_d · c) · k_d, and applied to the
  finished inner product, (Σ_d q_d · k_d) · c.  They agree for every extended-real q, k as soon as c is a
  nonnegative number other than +∞: multiplication is commutative and associative on the extended reals, and
  multiplication by such a c distributes over a sum even when the sum mixes +∞ and −∞.
-/
import Idealize.ShloMosaic.PureOps.Ideal
import Mathlib.Data.EReal.Operations

noncomputable section

open scoped BigOperators

namespace Cert.Attn

open Idealize.ShloMosaic

/-- Column of coordinate `d` of head `h` among the queries. -/
def qcol (h : Fin 8) (d : Fin 32) : Fin 768 := ⟨h.val * 32 + d.val, by have := h.isLt; have := d.isLt; omega⟩
/-- Column of coordinate `d` of head `h` among the keys. -/
def kcol (h : Fin 8) (d : Fin 32) : Fin 768 := ⟨256 + h.val * 32 + d.val, by have := h.isLt; have := d.isLt; omega⟩
/-- Column of coordinate `d` of head `h` among the values. -/
def vcol (h : Fin 8) (d : Fin 32) : Fin 768 := ⟨512 + h.val * 32 + d.val, by have := h.isLt; have := d.isLt; omega⟩

/-- The head a column of the concatenated outputs belongs to. -/
def headOf (e : Fin 256) : Fin 8 := ⟨e.val / 32, by have := e.isLt; omega⟩
/-- Its coordinate inside that head. -/
def coordOf (e : Fin 256) : Fin 32 := ⟨e.val % 32, Nat.mod_lt _ (by decide)⟩

/-- The projection of a window's tokens: entry (i, n) is Σ_e x (i, e) · w (n, e). -/
def proj (x : Fin 49 → Fin 256 → EReal) (w : Fin 768 → Fin 256 → EReal) (i : Fin 49) (n : Fin 768) : EReal :=
  ∑ e : Fin 256, x i e * w n e

/-- Scores with the scale folded into the queries. -/
def scoreQ (c : EReal) (P : Fin 49 → Fin 768 → EReal) (b : Fin 8 → Fin 49 → Fin 49 → EReal) (h : Fin 8) (i j : Fin 49) : EReal :=
  (∑ d : Fin 32, (P i (qcol h d) * c) * P j (kcol h d)) + b h i j

/-- Scores with the scale applied to the inner product. -/
def scoreS (c : EReal) (P : Fin 49 → Fin 768 → EReal) (b : Fin 8 → Fin 49 → Fin 49 → EReal) (h : Fin 8) (i j : Fin 49) : EReal :=
  (∑ d : Fin 32, P i (qcol h d) * P j (kcol h d)) * c + b h i j

/-- A row of scores as weights: exp (s_j − M) / Σ_k exp (s_k − M), M the fold of max from `lo` over the row. -/
def weights (lo : EReal) (s : Fin 49 → EReal) (j : Fin 49) : EReal :=
  Ideal.div (Ideal.exp (s j - (Finset.univ : Finset (Fin 49)).fold max lo s))
    (∑ k : Fin 49, Ideal.exp (s k - (Finset.univ : Finset (Fin 49)).fold max lo s))

/-- One head's output at token `i`, coordinate `d`: the weighted sum of the values. -/
def head (lo : EReal) (s : Fin 49 → Fin 49 → EReal) (v : Fin 49 → Fin 32 → EReal) (i : Fin 49) (d : Fin 32) : EReal :=
  ∑ j : Fin 49, weights lo (s i) j * v j d

/-- The window's result: the heads' outputs side by side, times the output matrix. -/
def window (lo : EReal) (s : Fin 8 → Fin 49 → Fin 49 → EReal) (P : Fin 49 → Fin 768 → EReal)
    (wo : Fin 256 → Fin 256 → EReal) (i : Fin 49) (o : Fin 256) : EReal :=
  ∑ e : Fin 256, head lo (s (headOf e)) (fun j d => P j (vcol (headOf e) d)) i (coordOf e) * wo o e

/-- Multiplication by a nonnegative number other than +∞ distributes over a finite sum of extended reals. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The two arrangements of the scale give the same scores. -/
theorem scoreQ_eq_scoreS {c : EReal} (h0 : 0 ≤ c) (ht : c ≠ ⊤) (P : Fin 49 → Fin 768 → EReal)
    (b : Fin 8 → Fin 49 → Fin 49 → EReal) : scoreQ c P b = scoreS c P b := by
  funext h i j
  unfold scoreQ scoreS
  rw [sum_mul_of_nonneg _ _ h0 ht]
  exact congrArg (· + b h i j) (Finset.sum_congr rfl fun d _ => mul_right_comm _ _ _)

/-- The scale word 0x3E3504F3 denotes a nonnegative real number. -/
theorem scale_nonneg : 0 ≤ Ideal.ofBits .f32 0x3E3504F3#32 := by
  simp [Ideal.ofBits, Ideal.ieee, -EReal.coe_mul]

theorem scale_ne_top : Ideal.ofBits .f32 0x3E3504F3#32 ≠ ⊤ := by
  simp [Ideal.ofBits, Ideal.ieee, -EReal.coe_mul]

/-- The fold of max from `lo` is at least `lo`, so taking the maximum with `lo` once more changes nothing. -/
theorem max_fold_self (lo : EReal) (s : Fin 49 → EReal) :
    max lo ((Finset.univ : Finset (Fin 49)).fold max lo s) = (Finset.univ : Finset (Fin 49)).fold max lo s :=
  max_eq_right ((Finset.le_fold_max lo).2 (Or.inl le_rfl))

end Cert.Attn

end
-- ==== Proof.KernelTileRead.lean ====
/-
  The tile's named pieces read at an index on the extended reals, where a change of float format is the identity
  and every product is a finite sum: entry (w, i, o) of a tile's result is the attention of window w — its
  tokens projected, each head's scores with the scale folded into the queries, the weights, the weighted values,
  the heads side by side times the output matrix — at token i and output column o.
-/
import proofs.«144305_j62362925138373_2_alg».proof.Proof.KernelTile
import proofs.«144305_j62362925138373_2_alg».proof.Proof.LibAttnRead
import proofs.«144305_j62362925138373_2_alg».proof.Proof.LibVecRead
import proofs.«144305_j62362925138373_2_alg».proof.Proof.AttnSpec

set_option synthInstance.maxSize 4096

noncomputable section

open scoped BigOperators

namespace Cert.KernelIdeal.Tile

open Cert.KernelIdeal Cert.KernelIdeal.Gen Idealize.ShloMosaic Idealize.SL.Sem Idealize.ShloMosaic.ValueIdx Cert.AttnRead

/-! ## Where each product's operands are read: one fact per axis of each operand -/

theorem proj_l0 (i : S784x768.Idx) (q : dot_S784x256_S256x768_S784x768_1_0_0_1_n_n.contr.Idx) :
    (dot_S784x256_S256x768_S784x768_1_0_0_1_n_n.lhsIdx i q 0).val = (i 0).val := by
  unfold DotDims.lhsIdx
  rw [dif_neg (show ¬(0 : Fin S784x256.rank) ∈ dot_S784x256_S256x768_S784x768_1_0_0_1_n_n.lhsBatch by decide), dif_pos (show (0 : Fin S784x256.rank) ∈ dot_S784x256_S256x768_S784x768_1_0_0_1_n_n.lhsNonContracting by decide)]
  rfl
theorem proj_l1 (i : S784x768.Idx) (q : dot_S784x256_S256x768_S784x768_1_0_0_1_n_n.contr.Idx) :
    (dot_S784x256_S256x768_S784x768_1_0_0_1_n_n.lhsIdx i q 1).val = (q ⟨0, by decide⟩).val :=
  dot_S784x256_S256x768_S784x768_1_0_0_1_n_n.lhsIdx_val_of_single rfl i q
theorem proj_r0 (i : S784x768.Idx) (q : dot_S784x256_S256x768_S784x768_1_0_0_1_n_n.contr.Idx) :
    (dot_S784x256_S256x768_S784x768_1_0_0_1_n_n.rhsIdx i q 0).val = (q ⟨0, by decide⟩).val :=
  dot_S784x256_S256x768_S784x768_1_0_0_1_n_n.rhsIdx_val_of_single rfl i q
theorem proj_r1 (i : S784x768.Idx) (q : dot_S784x256_S256x768_S784x768_1_0_0_1_n_n.contr.Idx) :
    (dot_S784x256_S256x768_S784x768_1_0_0_1_n_n.rhsIdx i q 1).val = (i 1).val := by
  unfold DotDims.rhsIdx
  rw [dif_neg (show ¬(1 : Fin S256x768.rank) ∈ dot_S784x256_S256x768_S784x768_1_0_0_1_n_n.rhsBatch by decide), dif_pos (show (1 : Fin S256x768.rank) ∈ dot_S784x256_S256x768_S784x768_1_0_0_1_n_n.rhsNonContracting by decide)]
  rfl
theorem qk_l0 (i : S16x49x49.Idx) (q : dot_S16x49x32_S16x49x32_S16x49x49_2_2_1_1_0_0.contr.Idx) :
    (dot_S16x49x32_S16x49x32_S16x49x49_2_2_1_1_0_0.lhsIdx i q 0).val = (i 0).val := by
  unfold DotDims.lhsIdx
  rw [dif_pos (show (0 : Fin S16x49x32.rank) ∈ dot_S16x49x32_S16x49x32_S16x49x49_2_2_1_1_0_0.lhsBatch by decide)]
  rfl
theorem qk_l1 (i : S16x49x49.Idx) (q : dot_S16x49x32_S16x49x32_S16x49x49_2_2_1_1_0_0.contr.Idx) :
    (dot_S16x49x32_S16x49x32_S16x49x49_2_2_1_1_0_0.lhsIdx i q 1).val = (i 1).val := by
  unfold DotDims.lhsIdx
  rw [dif_neg (show ¬(1 : Fin S16x49x32.rank) ∈ dot_S16x49x32_S16x49x32_S16x49x49_2_2_1_1_0_0.lhsBatch by decide), dif_pos (show (1 : Fin S16x49x32.rank) ∈ dot_S16x49x32_S16x49x32_S16x49x49_2_2_1_1_0_0.lhsNonContracting by decide)]
  rfl
theorem qk_l2 (i : S16x49x49.Idx) (q : dot_S16x49x32_S16x49x32_S16x49x49_2_2_1_1_0_0.contr.Idx) :
    (dot_S16x49x32_S16x49x32_S16x49x49_2_2_1_1_0_0.lhsIdx i q 2).val = (q ⟨0, by decide⟩).val :=
  dot_S16x49x32_S16x49x32_S16x49x49_2_2_1_1_0_0.lhsIdx_val_of_single rfl i q
theorem qk_r0 (i : S16x49x49.Idx) (q : dot_S16x49x32_S16x49x32_S16x49x49_2_2_1_1_0_0.contr.Idx) :
    (dot_S16x49x32_S16x49x32_S16x49x49_2_2_1_1_0_0.rhsIdx i q 0).val = (i 0).val := by
  unfold DotDims.rhsIdx
  rw [dif_pos (show (0 : Fin S16x49x32.rank) ∈ dot_S16x49x32_S16x49x32_S16x49x49_2_2_1_1_0_0.rhsBatch by decide)]
  rfl
theorem qk_r1 (i : S16x49x49.Idx) (q : dot_S16x49x32_S16x49x32_S16x49x49_2_2_1_1_0_0.contr.Idx) :
    (dot_S16x49x32_S16x49x32_S16x49x49_2_2_1_1_0_0.rhsIdx i q 1).val = (i 2).val := by
  unfold DotDims.rhsIdx
  rw [dif_neg (show ¬(1 : Fin S16x49x32.rank) ∈ dot_S16x49x32_S16x49x32_S16x49x49_2_2_1_1_0_0.rhsBatch by decide), dif_pos (show (1 : Fin S16x49x32.rank) ∈ dot_S16x49x32_S16x49x32_S16x49x49_2_2_1_1_0_0.rhsNonContracting by decide)]
  rfl
theorem qk_r2 (i : S16x49x49.Idx) (q : dot_S16x49x32_S16x49x32_S16x49x49_2_2_1_1_0_0.contr.Idx) :
    (dot_S16x49x32_S16x49x32_S16x49x49_2_2_1_1_0_0.rhsIdx i q 2).val = (q ⟨0, by decide⟩).val :=
  dot_S16x49x32_S16x49x32_S16x49x49_2_2_1_1_0_0.rhsIdx_val_of_single rfl i q
theorem pv_l0 (i : S16x49x32.Idx) (q : dot_S16x49x49_S16x49x32_S16x49x32_2_1_1_2_0_0.contr.Idx) :
    (dot_S16x49x49_S16x49x32_S16x49x32_2_1_1_2_0_0.lhsIdx i q 0).val = (i 0).val := by
  unfold DotDims.lhsIdx
  rw [dif_pos (show (0 : Fin S16x49x49.rank) ∈ dot_S16x49x49_S16x49x32_S16x49x32_2_1_1_2_0_0.lhsBatch by decide)]
  rfl
theorem pv_l1 (i : S16x49x32.Idx) (q : dot_S16x49x49_S16x49x32_S16x49x32_2_1_1_2_0_0.contr.Idx) :
    (dot_S16x49x49_S16x49x32_S16x49x32_2_1_1_2_0_0.lhsIdx i q 1).val = (i 1).val := by
  unfold DotDims.lhsIdx
  rw [dif_neg (show ¬(1 : Fin S16x49x49.rank) ∈ dot_S16x49x49_S16x49x32_S16x49x32_2_1_1_2_0_0.lhsBatch by decide), dif_pos (show (1 : Fin S16x49x49.rank) ∈ dot_S16x49x49_S16x49x32_S16x49x32_2_1_1_2_0_0.lhsNonContracting by decide)]
  rfl
theorem pv_l2 (i : S16x49x32.Idx) (q : dot_S16x49x49_S16x49x32_S16x49x32_2_1_1_2_0_0.contr.Idx) :
    (dot_S16x49x49_S16x49x32_S16x49x32_2_1_1_2_0_0.lhsIdx i q 2).val = (q ⟨0, by decide⟩).val :=
  dot_S16x49x49_S16x49x32_S16x49x32_2_1_1_2_0_0.lhsIdx_val_of_single rfl i q
theorem pv_r0 (i : S16x49x32.Idx) (q : dot_S16x49x49_S16x49x32_S16x49x32_2_1_1_2_0_0.contr.Idx) :
    (dot_S16x49x49_S16x49x32_S16x49x32_2_1_1_2_0_0.rhsIdx i q 0).val = (i 0).val := by
  unfold DotDims.rhsIdx
  rw [dif_pos (show (0 : Fin S16x49x32.rank) ∈ dot_S16x49x49_S16x49x32_S16x49x32_2_1_1_2_0_0.rhsBatch by decide)]
  rfl
theorem pv_r1 (i : S16x49x32.Idx) (q : dot_S16x49x49_S16x49x32_S16x49x32_2_1_1_2_0_0.contr.Idx) :
    (dot_S16x49x49_S16x49x32_S16x49x32_2_1_1_2_0_0.rhsIdx i q 1).val = (q ⟨0, by decide⟩).val :=
  dot_S16x49x49_S16x49x32_S16x49x32_2_1_1_2_0_0.rhsIdx_val_of_single rfl i q
theorem pv_r2 (i : S16x49x32.Idx) (q : dot_S16x49x49_S16x49x32_S16x49x32_2_1_1_2_0_0.contr.Idx) :
    (dot_S16x49x49_S16x49x32_S16x49x32_2_1_1_2_0_0.rhsIdx i q 2).val = (i 2).val := by
  unfold DotDims.rhsIdx
  rw [dif_neg (show ¬(2 : Fin S16x49x32.rank) ∈ dot_S16x49x49_S16x49x32_S16x49x32_2_1_1_2_0_0.rhsBatch by decide), dif_pos (show (2 : Fin S16x49x32.rank) ∈ dot_S16x49x49_S16x49x32_S16x49x32_2_1_1_2_0_0.rhsNonContracting by decide)]
  rfl
theorem outp_l0 (i : S784x256.Idx) (q : dot_S784x256_S256x256_S784x256_1_0_0_1_n_n.contr.Idx) :
    (dot_S784x256_S256x256_S784x256_1_0_0_1_n_n.lhsIdx i q 0).val = (i 0).val := by
  unfold DotDims.lhsIdx
  rw [dif_neg (show ¬(0 : Fin S784x256.rank) ∈ dot_S784x256_S256x256_S784x256_1_0_0_1_n_n.lhsBatch by decide), dif_pos (show (0 : Fin S784x256.rank) ∈ dot_S784x256_S256x256_S784x256_1_0_0_1_n_n.lhsNonContracting by decide)]
  rfl
theorem outp_l1 (i : S784x256.Idx) (q : dot_S784x256_S256x256_S784x256_1_0_0_1_n_n.contr.Idx) :
    (dot_S784x256_S256x256_S784x256_1_0_0_1_n_n.lhsIdx i q 1).val = (q ⟨0, by decide⟩).val :=
  dot_S784x256_S256x256_S784x256_1_0_0_1_n_n.lhsIdx_val_of_single rfl i q
theorem outp_r0 (i : S784x256.Idx) (q : dot_S784x256_S256x256_S784x256_1_0_0_1_n_n.contr.Idx) :
    (dot_S784x256_S256x256_S784x256_1_0_0_1_n_n.rhsIdx i q 0).val = (q ⟨0, by decide⟩).val :=
  dot_S784x256_S256x256_S784x256_1_0_0_1_n_n.rhsIdx_val_of_single rfl i q
theorem outp_r1 (i : S784x256.Idx) (q : dot_S784x256_S256x256_S784x256_1_0_0_1_n_n.contr.Idx) :
    (dot_S784x256_S256x256_S784x256_1_0_0_1_n_n.rhsIdx i q 1).val = (i 1).val := by
  unfold DotDims.rhsIdx
  rw [dif_neg (show ¬(1 : Fin S256x256.rank) ∈ dot_S784x256_S256x256_S784x256_1_0_0_1_n_n.rhsBatch by decide), dif_pos (show (1 : Fin S256x256.rank) ∈ dot_S784x256_S256x256_S784x256_1_0_0_1_n_n.rhsNonContracting by decide)]
  rfl

theorem proj_L (r : Fin 784) (n : Fin 768) (e : Fin 256) :
    dot_S784x256_S256x768_S784x768_1_0_0_1_n_n.lhsIdx (ix2 r n) ((contrEquiv1 dot_S784x256_S256x768_S784x768_1_0_0_1_n_n 256 rfl rfl).symm e) = ix2 r e :=
  funext fun a => Fin.ext (by
    match a with
    | ⟨0, _⟩ => exact proj_l0 _ _
    | ⟨1, _⟩ => exact (proj_l1 _ _).trans (contrEquiv1_symm_val dot_S784x256_S256x768_S784x768_1_0_0_1_n_n 256 rfl rfl e))
theorem proj_R (r : Fin 784) (n : Fin 768) (e : Fin 256) :
    dot_S784x256_S256x768_S784x768_1_0_0_1_n_n.rhsIdx (ix2 r n) ((contrEquiv1 dot_S784x256_S256x768_S784x768_1_0_0_1_n_n 256 rfl rfl).symm e) = ix2 e n :=
  funext fun a => Fin.ext (by
    match a with
    | ⟨0, _⟩ => exact (proj_r0 _ _).trans (contrEquiv1_symm_val dot_S784x256_S256x768_S784x768_1_0_0_1_n_n 256 rfl rfl e)
    | ⟨1, _⟩ => exact proj_r1 _ _)
theorem qk_L (w : Fin 16) (i j : Fin 49) (d : Fin 32) :
    dot_S16x49x32_S16x49x32_S16x49x49_2_2_1_1_0_0.lhsIdx (ix3 w i j) ((contrEquiv1 dot_S16x49x32_S16x49x32_S16x49x49_2_2_1_1_0_0 32 rfl rfl).symm d) = ix3 w i d :=
  funext fun a => Fin.ext (by
    match a with
    | ⟨0, _⟩ => exact qk_l0 _ _
    | ⟨1, _⟩ => exact qk_l1 _ _
    | ⟨2, _⟩ => exact (qk_l2 _ _).trans (contrEquiv1_symm_val dot_S16x49x32_S16x49x32_S16x49x49_2_2_1_1_0_0 32 rfl rfl d))
theorem qk_R (w : Fin 16) (i j : Fin 49) (d : Fin 32) :
    dot_S16x49x32_S16x49x32_S16x49x49_2_2_1_1_0_0.rhsIdx (ix3 w i j) ((contrEquiv1 dot_S16x49x32_S16x49x32_S16x49x49_2_2_1_1_0_0 32 rfl rfl).symm d) = ix3 w j d :=
  funext fun a => Fin.ext (by
    match a with
    | ⟨0, _⟩ => exact qk_r0 _ _
    | ⟨1, _⟩ => exact qk_r1 _ _
    | ⟨2, _⟩ => exact (qk_r2 _ _).trans (contrEquiv1_symm_val dot_S16x49x32_S16x49x32_S16x49x49_2_2_1_1_0_0 32 rfl rfl d))
theorem pv_L (w : Fin 16) (i : Fin 49) (d : Fin 32) (j : Fin 49) :
    dot_S16x49x49_S16x49x32_S16x49x32_2_1_1_2_0_0.lhsIdx (ix3 w i d) ((contrEquiv1 dot_S16x49x49_S16x49x32_S16x49x32_2_1_1_2_0_0 49 rfl rfl).symm j) = ix3 w i j :=
  funext fun a => Fin.ext (by
    match a with
    | ⟨0, _⟩ => exact pv_l0 _ _
    | ⟨1, _⟩ => exact pv_l1 _ _
    | ⟨2, _⟩ => exact (pv_l2 _ _).trans (contrEquiv1_symm_val dot_S16x49x49_S16x49x32_S16x49x32_2_1_1_2_0_0 49 rfl rfl j))
theorem pv_R (w : Fin 16) (i : Fin 49) (d : Fin 32) (j : Fin 49) :
    dot_S16x49x49_S16x49x32_S16x49x32_2_1_1_2_0_0.rhsIdx (ix3 w i d) ((contrEquiv1 dot_S16x49x49_S16x49x32_S16x49x32_2_1_1_2_0_0 49 rfl rfl).symm j) = ix3 w j d :=
  funext fun a => Fin.ext (by
    match a with
    | ⟨0, _⟩ => exact pv_r0 _ _
    | ⟨1, _⟩ => exact (pv_r1 _ _).trans (contrEquiv1_symm_val dot_S16x49x49_S16x49x32_S16x49x32_2_1_1_2_0_0 49 rfl rfl j)
    | ⟨2, _⟩ => exact pv_r2 _ _)
theorem outp_L (r : Fin 784) (o : Fin 256) (e : Fin 256) :
    dot_S784x256_S256x256_S784x256_1_0_0_1_n_n.lhsIdx (ix2 r o) ((contrEquiv1 dot_S784x256_S256x256_S784x256_1_0_0_1_n_n 256 rfl rfl).symm e) = ix2 r e :=
  funext fun a => Fin.ext (by
    match a with
    | ⟨0, _⟩ => exact outp_l0 _ _
    | ⟨1, _⟩ => exact (outp_l1 _ _).trans (contrEquiv1_symm_val dot_S784x256_S256x256_S784x256_1_0_0_1_n_n 256 rfl rfl e))
theorem outp_R (r : Fin 784) (o : Fin 256) (e : Fin 256) :
    dot_S784x256_S256x256_S784x256_1_0_0_1_n_n.rhsIdx (ix2 r o) ((contrEquiv1 dot_S784x256_S256x256_S784x256_1_0_0_1_n_n 256 rfl rfl).symm e) = ix2 e o :=
  funext fun a => Fin.ext (by
    match a with
    | ⟨0, _⟩ => exact (outp_r0 _ _).trans (contrEquiv1_symm_val dot_S784x256_S256x256_S784x256_1_0_0_1_n_n 256 rfl rfl e)
    | ⟨1, _⟩ => exact outp_r1 _ _)

/-! ## The pieces at an index -/

theorem exp_at {s : Shape} {φ : FTy} (x : FVec Ideal s φ) (i : s.Idx) : exp x i = Ideal.exp (x i) := rfl

/-- Row `w · 49 + i` of a 784-row array. -/
def rowOf (w : Fin 16) (i : Fin 49) : Fin 784 := ⟨w.val * 49 + i.val, by have := w.isLt; have := i.isLt; omega⟩

/-- Window `w` of a tile: its tokens projected into queries, keys and values. -/
def projK (x0 : Vec Ideal S16x49x256 .f32) (x1 : Vec Ideal S256x768 .bf16) (w : Fin 16) : Fin 49 → Fin 768 → EReal :=
  Attn.proj (fun i e => x0 (ix3 w i e)) (fun n e => x1 (ix2 e n))

theorem pay1_apply (x0 : Vec Ideal S16x49x256 .f32) (x1 : Vec Ideal S256x768 .bf16) (w : Fin 16) (i : Fin 49) (n : Fin 768) :
    k0_pay1 x0 x1 (ix2 (rowOf w i) n) = projK x0 x1 w i n := by
  unfold k0_pay1 projK Attn.proj
  refine (matmul_zero_single_apply (K := 256) dot_S784x256_S256x768_S784x768_1_0_0_1_n_n none rfl rfl _ _ (ix2 (rowOf w i) n) (fun e => ix2 (rowOf w i) e) (fun e => ix2 e n)
    (fun e => proj_L (rowOf w i) n e) (fun e => proj_R (rowOf w i) n e)).trans ?_
  refine Finset.sum_congr rfl fun e _ => congrArg₂ (· * ·) ?_ ?_
  · refine (shapeCast_merge_apply _ shapeCasts_S16x49x256_S784x256 w i e (rowOf w i) rfl).trans ?_
    refine (truncf_apply (ψ := .bf16) _ bitsLt_bf16_f32 _).trans ?_
    rw [shapeCast_self]
  · rw [shapeCast_self]

theorem pay2_apply (x0 : Vec Ideal S16x49x256 .f32) (x1 : Vec Ideal S256x768 .bf16) (w : Fin 16) (i : Fin 49) (n : Fin 256) (N : Fin 768)
    (hN : N.val = 0 + n.val) :
    k0_pay2 x0 x1 (ix2 (rowOf w i) n) = projK x0 x1 w i N * (Ideal.ofBits .f32 0x3E3504F3#32) := by
  unfold k0_pay2
  refine (mulf_apply _ _ _).trans ?_
  refine congrArg₂ (· * ·) ?_ rfl
  refine (VecRead.slice2_apply 0 0 _ slices_S784x768_o0_0_S784x256 (rowOf w i) n (rowOf w i) N (by omega) hN).trans ?_
  exact pay1_apply x0 x1 w i N

theorem pay3_apply (x0 : Vec Ideal S16x49x256 .f32) (x1 : Vec Ideal S256x768 .bf16) (w : Fin 16) (i : Fin 49) (n : Fin 256) (N : Fin 768)
    (hN : N.val = 256 + n.val) :
    k0_pay3 x0 x1 (ix2 (rowOf w i) n) = projK x0 x1 w i N := by
  unfold k0_pay3
  refine (VecRead.slice2_apply 0 256 _ slices_S784x768_o0_256_S784x256 (rowOf w i) n (rowOf w i) N (by omega) hN).trans ?_
  exact pay1_apply x0 x1 w i N

theorem pay4_apply (x0 : Vec Ideal S16x49x256 .f32) (x1 : Vec Ideal S256x768 .bf16) (w : Fin 16) (i : Fin 49) (n : Fin 256) (N : Fin 768)
    (hN : N.val = 512 + n.val) :
    k0_pay4 x0 x1 (ix2 (rowOf w i) n) = projK x0 x1 w i N := by
  unfold k0_pay4
  refine (VecRead.slice2_apply 0 512 _ slices_S784x768_o0_512_S784x256 (rowOf w i) n (rowOf w i) N (by omega) hN).trans ?_
  exact pay1_apply x0 x1 w i N

theorem pieceK_apply (X : FVec Ideal S784x256 .f32) (off : ℕ) (hs : S784x256.Slices ![0, off] S784x32)
    (w : Fin 16) (i : Fin 49) (d : Fin 32) (n : Fin 256) (hn : n.val = off + d.val) :
    pieceK X off hs (ix3 w i d) = X (ix2 (rowOf w i) n) := by
  unfold pieceK
  refine (truncf_apply (ψ := .bf16) _ bitsLt_bf16_f32 _).trans ?_
  refine (shapeCast_split_apply _ shapeCasts_S784x32_S16x49x32 w i d (rowOf w i) rfl).trans ?_
  exact VecRead.slice2_apply 0 off X hs (rowOf w i) d (rowOf w i) n (by omega) hn

theorem scoresK_apply (q k : FVec Ideal S16x49x32 .bf16) (b : Vec Ideal S1x49x49 .f32) (w : Fin 16) (i j : Fin 49) :
    scoresK q k b (ix3 w i j) = (∑ d : Fin 32, q (ix3 w i d) * k (ix3 w j d)) + b (ix3 (0 : Fin 1) i j) := by
  unfold scoresK
  refine (addf_apply _ _ _).trans ?_
  refine congrArg₂ (· + ·) ?_ ?_
  · exact matmul_zero_single_apply (K := 32) dot_S16x49x32_S16x49x32_S16x49x49_2_2_1_1_0_0 none rfl rfl q k (ix3 w i j) (fun d => ix3 w i d) (fun d => ix3 w j d)
      (fun d => qk_L w i j d) (fun d => qk_R w i j d)
  · refine (broadcastTo_1ab_mab_apply _ broadcasts_S1x49x49_S16x49x49 w i j).trans ?_
    refine (shapeCast_ab_1ab_apply _ shapeCasts_S49x49_S1x49x49 (0 : Fin 1) i j).trans ?_
    exact shapeCast_1ab_ab_apply b shapeCasts_S1x49x49_S49x49 i j

theorem expsK_apply (s : FVec Ideal S16x49x49 .f32) (w : Fin 16) (i j : Fin 49) :
    expsK s (ix3 w i j)
      = Ideal.exp (s (ix3 w i j) - (Finset.univ : Finset (Fin 49)).fold max (Ideal.ofBits .f32 0xFF800000#32) (fun k => s (ix3 w i k))) := by
  unfold expsK
  refine (exp_at _ _).trans (congrArg Ideal.exp ?_)
  refine (subf_apply _ _ _).trans (congrArg (s (ix3 w i j) - ·) ?_)
  refine (broadcastTo_ab1_abc_apply _ broadcasts_S16x49x1_S16x49x49 w i j).trans ?_
  refine (shapeCast_ab_ab1_apply _ shapeCasts_S16x49_S16x49x1 w i (0 : Fin 1)).trans ?_
  exact laneMax3_apply s reduces_S16x49x49_S16x49 (.inl rfl) rfl w i

theorem probsK_apply (e : FVec Ideal S16x49x49 .f32) (w : Fin 16) (i j : Fin 49) :
    probsK e (ix3 w i j) = Ideal.div (e (ix3 w i j)) (∑ k : Fin 49, e (ix3 w i k)) := by
  unfold probsK
  refine (truncf_apply (ψ := .bf16) _ bitsLt_bf16_f32 _).trans ?_
  refine (divf_apply _ _ _).trans (congrArg (Ideal.div (e (ix3 w i j))) ?_)
  refine (broadcastTo_ab1_abc_apply _ broadcasts_S16x49x1_S16x49x49 w i j).trans ?_
  refine (shapeCast_ab_ab1_apply _ shapeCasts_S16x49_S16x49x1 w i (0 : Fin 1)).trans ?_
  exact laneSum3_apply e reduces_S16x49x49_S16x49 (.inl rfl) rfl w i

/-- One head on a tile, at window `w`, token `i`, coordinate `d`. -/
theorem headK_apply (q k v : FVec Ideal S16x49x32 .bf16) (b : Vec Ideal S1x49x49 .f32) (w : Fin 16) (i : Fin 49) (d : Fin 32) :
    headK q k v b (ix3 w i d)
      = Attn.head (Ideal.ofBits .f32 0xFF800000#32) (fun i j => (∑ dd : Fin 32, q (ix3 w i dd) * k (ix3 w j dd)) + b (ix3 (0 : Fin 1) i j))
          (fun j d => v (ix3 w j d)) i d := by
  unfold headK
  refine (matmul_zero_single_apply (K := 49) dot_S16x49x49_S16x49x32_S16x49x32_2_1_1_2_0_0 none rfl rfl _ v (ix3 w i d) (fun j => ix3 w i j) (fun j => ix3 w j d)
    (fun j => pv_L w i d j) (fun j => pv_R w i d j)).trans ?_
  unfold Attn.head Attn.weights
  refine Finset.sum_congr rfl fun j _ => congrArg (· * v (ix3 w j d)) ?_
  refine (probsK_apply _ w i j).trans ?_
  simp only [expsK_apply, scoresK_apply]

/-- Head `h` from the loaded blocks: the scores carry the scale inside the queries. -/
theorem headAt_apply (x0 : Vec Ideal S16x49x256 .f32) (x1 : Vec Ideal S256x768 .bf16) (h : Fin 8) (off : ℕ) (hoff : off = h.val * 32)
    (hs : S784x256.Slices ![0, off] S784x32) (b : Vec Ideal S1x49x49 .f32) (w : Fin 16) (i : Fin 49) (d : Fin 32) :
    headAt (k0_pay2 x0 x1) (k0_pay3 x0 x1) (k0_pay4 x0 x1) off hs b (ix3 w i d)
      = Attn.head (Ideal.ofBits .f32 0xFF800000#32)
          (fun i j => (∑ dd : Fin 32, (projK x0 x1 w i (Attn.qcol h dd) * (Ideal.ofBits .f32 0x3E3504F3#32)) * projK x0 x1 w j (Attn.kcol h dd)) + b (ix3 (0 : Fin 1) i j))
          (fun j d => projK x0 x1 w j (Attn.vcol h d)) i d := by
  subst hoff
  have hlt := h.isLt
  unfold headAt
  rw [headK_apply]
  have hq : ∀ (i : Fin 49) (dd : Fin 32), pieceK (k0_pay2 x0 x1) (h.val * 32) hs (ix3 w i dd) = projK x0 x1 w i (Attn.qcol h dd) * (Ideal.ofBits .f32 0x3E3504F3#32) :=
    fun i dd => (pieceK_apply _ _ hs w i dd ⟨h.val * 32 + dd.val, by have := dd.isLt; omega⟩ rfl).trans
      (pay2_apply x0 x1 w i _ (Attn.qcol h dd) (by simp [Attn.qcol]))
  have hk : ∀ (i : Fin 49) (dd : Fin 32), pieceK (k0_pay3 x0 x1) (h.val * 32) hs (ix3 w i dd) = projK x0 x1 w i (Attn.kcol h dd) :=
    fun i dd => (pieceK_apply _ _ hs w i dd ⟨h.val * 32 + dd.val, by have := dd.isLt; omega⟩ rfl).trans
      (pay3_apply x0 x1 w i _ (Attn.kcol h dd) (by simp [Attn.kcol]; omega))
  have hv : ∀ (i : Fin 49) (dd : Fin 32), pieceK (k0_pay4 x0 x1) (h.val * 32) hs (ix3 w i dd) = projK x0 x1 w i (Attn.vcol h dd) :=
    fun i dd => (pieceK_apply _ _ hs w i dd ⟨h.val * 32 + dd.val, by have := dd.isLt; omega⟩ rfl).trans
      (pay4_apply x0 x1 w i _ (Attn.vcol h dd) (by simp [Attn.vcol]; omega))
  simp only [hq, hk, hv]

/-- The bias of head `h` at tokens `(i, j)`, from the eight loaded rows. -/
def biasK (b0 b1 b2 b3 b4 b5 b6 b7 : Vec Ideal S1x49x49 .f32) (h : Fin 8) (i j : Fin 49) : EReal :=
  (![b0, b1, b2, b3, b4, b5, b6, b7] h) (ix3 (0 : Fin 1) i j)

theorem headsK_apply (x0 : Vec Ideal S16x49x256 .f32) (x1 : Vec Ideal S256x768 .bf16) (b0 b1 b2 b3 b4 b5 b6 b7 : Vec Ideal S1x49x49 .f32)
    (h : Fin 8) (w : Fin 16) (i : Fin 49) (d : Fin 32) :
    headsK x0 x1 b0 b1 b2 b3 b4 b5 b6 b7 h (ix3 w i d)
      = Attn.head (Ideal.ofBits .f32 0xFF800000#32) (Attn.scoreQ (Ideal.ofBits .f32 0x3E3504F3#32) (projK x0 x1 w) (biasK b0 b1 b2 b3 b4 b5 b6 b7) h)
          (fun j d => projK x0 x1 w j (Attn.vcol h d)) i d := by
  match h with
  | ⟨0, _⟩ => exact headAt_apply x0 x1 ⟨0, by omega⟩ 0 rfl slices_S784x256_o0_0_S784x32 b0 w i d
  | ⟨1, _⟩ => exact headAt_apply x0 x1 ⟨1, by omega⟩ 32 rfl slices_S784x256_o0_32_S784x32 b1 w i d
  | ⟨2, _⟩ => exact headAt_apply x0 x1 ⟨2, by omega⟩ 64 rfl slices_S784x256_o0_64_S784x32 b2 w i d
  | ⟨3, _⟩ => exact headAt_apply x0 x1 ⟨3, by omega⟩ 96 rfl slices_S784x256_o0_96_S784x32 b3 w i d
  | ⟨4, _⟩ => exact headAt_apply x0 x1 ⟨4, by omega⟩ 128 rfl slices_S784x256_o0_128_S784x32 b4 w i d
  | ⟨5, _⟩ => exact headAt_apply x0 x1 ⟨5, by omega⟩ 160 rfl slices_S784x256_o0_160_S784x32 b5 w i d
  | ⟨6, _⟩ => exact headAt_apply x0 x1 ⟨6, by omega⟩ 192 rfl slices_S784x256_o0_192_S784x32 b6 w i d
  | ⟨7, _⟩ => exact headAt_apply x0 x1 ⟨7, by omega⟩ 224 rfl slices_S784x256_o0_224_S784x32 b7 w i d

theorem tileOut_apply (H : Fin 8 → FVec Ideal S16x49x32 .f32)
    (hc : Shape.Concatenates ((List.ofFn fun n : Fin 8 => (⟨S16x49x32, H n⟩ : (s : Shape) × (s.Idx → Ideal .f32))).map (·.1)) S16x49x256 2)
    (wo : Vec Ideal S256x256 .bf16) (w : Fin 16) (i : Fin 49) (o : Fin 256) :
    tileOut H hc wo (ix3 w i o) = ∑ e : Fin 256, H (Attn.headOf e) (ix3 w i (Attn.coordOf e)) * wo (ix2 e o) := by
  unfold tileOut
  refine (shapeCast_split_apply _ shapeCasts_S784x256_S16x49x256 w i o (rowOf w i) rfl).trans ?_
  refine (matmul_zero_single_apply (K := 256) dot_S784x256_S256x256_S784x256_1_0_0_1_n_n none rfl rfl _ _ (ix2 (rowOf w i) o) (fun e => ix2 (rowOf w i) e) (fun e => ix2 e o)
    (fun e => outp_L (rowOf w i) o e) (fun e => outp_R (rowOf w i) o e)).trans ?_
  refine Finset.sum_congr rfl fun e _ => congrArg₂ (· * ·) ?_ ?_
  · refine (truncf_apply (ψ := .bf16) _ bitsLt_bf16_f32 _).trans ?_
    refine (shapeCast_merge_apply _ shapeCasts_S16x49x256_S784x256 w i e (rowOf w i) rfl).trans ?_
    exact concatenate_ofFn_apply 2 H hc rfl 32 rfl (ix3 w i e) (Attn.headOf e) rfl (ix3 w i (Attn.coordOf e)) rfl
      (fun b hb => by
        match b with
        | ⟨0, _⟩ => rfl
        | ⟨1, _⟩ => rfl
        | ⟨2, _⟩ => exact absurd rfl hb)
  · rw [shapeCast_self]

/-- ENTRY (w, i, o) OF A TILE'S RESULT is the attention of window `w` at token `i`, column `o`, the scale folded
    into the queries. -/
theorem tile_apply (x0 : Vec Ideal S16x49x256 .f32) (x1 : Vec Ideal S256x768 .bf16) (x2 : Vec Ideal S256x256 .bf16)
    (b0 b1 b2 b3 b4 b5 b6 b7 : Vec Ideal S1x49x49 .f32) (w : Fin 16) (i : Fin 49) (o : Fin 256) :
    tileOut (headsK x0 x1 b0 b1 b2 b3 b4 b5 b6 b7) concatenates_S16x49x32_S16x49x32_S16x49x32_S16x49x32_S16x49x32_S16x49x32_S16x49x32_S16x49x32_S16x49x256_d2 x2 (ix3 w i o)
      = Attn.window (Ideal.ofBits .f32 0xFF800000#32) (Attn.scoreQ (Ideal.ofBits .f32 0x3E3504F3#32) (projK x0 x1 w) (biasK b0 b1 b2 b3 b4 b5 b6 b7)) (projK x0 x1 w)
          (fun o e => x2 (ix2 e o)) i o := by
  refine (tileOut_apply _ _ x2 w i o).trans ?_
  unfold Attn.window
  exact Finset.sum_congr rfl fun e _ => congrArg (· * x2 (ix2 e o)) (headsK_apply x0 x1 b0 b1 b2 b3 b4 b5 b6 b7 _ w i _)

end Cert.KernelIdeal.Tile

end
-- ==== Proof.KernelArray.lean ====
/-
  From tiles to the whole result.  Grid point t works on windows 16 t … 16 t + 15 of the 4096 × 49 × 256 token
  array; the two weight matrices and the bias array are the same whole blocks at every point.  What point t
  writes back is rows 16 t … 16 t + 15 of ONE function of the arrays the region finds: window W of the result
  is the attention of window W of the tokens.  The 256 blocks tile the result, so after the last point the array
  is that function; the program's result is its view as 16 × 256 × 49 × 256.  The arrays the region finds are
  the arguments re-laid: the tokens with their two leading axes merged, the weight matrices transposed, the bias
  gathered from its table and moved head-first.
-/
import proofs.«144305_j62362925138373_2_alg».proof.Proof.Gen.KernelIdeal.Frame
import proofs.«144305_j62362925138373_2_alg».proof.Proof.KernelTileRead
import Idealize.ShloMosaic.Lib.Pipeline.Value
import Idealize.ShloMosaic.Lib.StableHlo.Run
import Idealize.ShloMosaic.Lib.Tactic

set_option synthInstance.maxSize 4096
set_option maxRecDepth 16384

noncomputable section

open scoped BigOperators

namespace Cert.KernelIdeal.Arr

open Cert.KernelIdeal Cert.KernelIdeal.Gen Cert.KernelIdeal.Tile
open Idealize.ShloMosaic Idealize.ShloMosaic.TcCoe Idealize.SL.Sem Idealize.ShloMosaic.ValueIdx
open Idealize.ShloMosaic.Pipeline (Dat)

/-- Window `W` of the result at token `i`, column `o`, from the arrays the region finds: tokens `X0`, projection
    matrix `X1` (256 × 768), output matrix `X2` (256 × 256), bias `X3` (head, token, token). -/
def attnAt (X0 : Vec Ideal S4096x49x256 .f32) (X1 : Vec Ideal S256x768 .bf16) (X2 : Vec Ideal S256x256 .bf16)
    (X3 : Vec Ideal S8x49x49 .f32) (W : Fin 4096) (i : Fin 49) (o : Fin 256) : EReal :=
  Attn.window (Ideal.ofBits .f32 0xFF800000#32)
    (Attn.scoreQ (Ideal.ofBits .f32 0x3E3504F3#32) (Attn.proj (fun i e => X0 (ix3 W i e)) (fun n e => X1 (ix2 e n))) (fun h i j => X3 (ix3 h i j)))
    (Attn.proj (fun i e => X0 (ix3 W i e)) (fun n e => X1 (ix2 e n))) (fun o e => X2 (ix2 e o)) i o

/-- The whole 4096 × 49 × 256 result. -/
def attnArr (X0 : Vec Ideal S4096x49x256 .f32) (X1 : Vec Ideal S256x768 .bf16) (X2 : Vec Ideal S256x256 .bf16)
    (X3 : Vec Ideal S8x49x49 .f32) : Vec Ideal S4096x49x256 .f32 :=
  fun idx => attnAt X0 X1 X2 X3 (idx 0) (idx 1) (idx 2)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the token window and the result window move with the point along the
    first axis; the other windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The input blocks at a point -/

theorem iblk0_apply (c : Dev nD) (t : Fin cfg0.N) (w : Fin 16) (i : Fin 49) (e : Fin 256) (W : Fin 4096)
    (hW : W.val = t.val * 16 + w.val) :
    (iblk m c 0 t : Vec Ideal S16x49x256 .f32) (ix3 w i e) = (V m c main_v0 : Vec Ideal S4096x49x256 .f32) (ix3 W i e) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 16 + 1 * w.val = W.val; rw [e0, hW]; omega
  | ⟨1, _⟩ => show win0_0.index t (1 : Fin 3) * 49 + 1 * i.val = i.val; rw [e1]; omega
  | ⟨2, _⟩ => show win0_0.index t (2 : Fin 3) * 256 + 1 * e.val = e.val; rw [e2]; omega

theorem iblk1_apply (c : Dev nD) (t : Fin cfg0.N) (e : Fin 256) (n : Fin 768) :
    (iblk m c 1 t : Vec Ideal S256x768 .bf16) (ix2 e n) = (V m c main_v2 : Vec Ideal S256x768 .bf16) (ix2 e n) := by
  obtain ⟨-, -, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 256 + 1 * e.val = e.val; rw [e0]; omega
  | ⟨1, _⟩ => show win0_1.index t (1 : Fin 2) * 768 + 1 * n.val = n.val; rw [e1]; omega

theorem iblk2_apply (c : Dev nD) (t : Fin cfg0.N) (e o : Fin 256) :
    (iblk m c 2 t : Vec Ideal S256x256 .bf16) (ix2 e o) = (V m c main_v4 : Vec Ideal S256x256 .bf16) (ix2 e o) := by
  obtain ⟨-, -, -, -, -, e0, e1, -⟩ := idx_facts t
  unfold iblk
  rw [View.read_apply]
  show V m c main_v4 _ = V m c main_v4 _
  congr 1
  funext a
  apply Fin.ext
  match a with
  | ⟨0, _⟩ => show win0_2.index t (0 : Fin 2) * 256 + 1 * e.val = e.val; rw [e0]; omega
  | ⟨1, _⟩ => show win0_2.index t (1 : Fin 2) * 256 + 1 * o.val = o.val; rw [e1]; omega

theorem iblk3_apply (c : Dev nD) (t : Fin cfg0.N) (h : Fin 8) (i j : Fin 49) :
    (iblk m c 3 t : Vec Ideal S8x49x49 .f32) (ix3 h i j) = (V m c main_v12 : Vec Ideal S8x49x49 .f32) (ix3 h i j) := by
  obtain ⟨-, -, -, -, -, -, -, e0, e1, e2, -⟩ := idx_facts t
  unfold iblk
  rw [View.read_apply]
  show V m c main_v12 _ = V m c main_v12 _
  congr 1
  funext a
  apply Fin.ext
  match a with
  | ⟨0, _⟩ => show win0_3.index t (0 : Fin 3) * 8 + 1 * h.val = h.val; rw [e0]; omega
  | ⟨1, _⟩ => show win0_3.index t (1 : Fin 3) * 49 + 1 * i.val = i.val; rw [e1]; omega
  | ⟨2, _⟩ => show win0_3.index t (2 : Fin 3) * 49 + 1 * j.val = j.val; rw [e2]; omega

/-- The eight bias rows the body loads are the rows of the bias block. -/
theorem bias_rows (x3 : Vec Ideal S8x49x49 .f32) (h : Fin 8) (i j : Fin 49) :
    biasK (View.ld x3 r0_2) (View.ld x3 r0_3) (View.ld x3 r0_4) (View.ld x3 r0_5) (View.ld x3 r0_6) (View.ld x3 r0_7)
      (View.ld x3 r0_8) (View.ld x3 r0_9) h i j = x3 (ix3 h i j) := by
  unfold biasK
  match h with
  | ⟨0, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨1, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨2, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨3, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨4, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨5, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨6, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega
  | ⟨7, _⟩ =>
    refine congrArg x3 (funext fun a => Fin.ext ?_)
    match a with
    | ⟨0, _⟩ => rfl
    | ⟨1, _⟩ => show 0 + 1 * i.val = i.val; omega
    | ⟨2, _⟩ => show 0 + 1 * j.val = j.val; omega

/-! ## What a point writes back, the cover, the final array -/

theorem flushed_eq (c : Dev nD) (t : Fin cfg0.N) :
    (dats m 0 c).flushed 4 t
      = ((cfg0.win 4).blk t).view.read (Elt Ideal) (attnArr (V m c main_v0) (V m c main_v2) (V m c main_v4) (V m c main_v12)) := by
  show (cfg0.win 4).cut (grid0.coords t) ((dats m 0 c).after 4 t) = _
  rw [after0_4]
  unfold out0_4
  rw [View.canon_unit_zero hz3]
  simp only [View.ld_unit_zero (S := S16x49x256) hz3, View.ld_unit_zero (S := S256x768) hz2, View.ld_unit_zero (S := S256x256) hz2]
  rw [payload_eq]
  obtain ⟨-, -, -, -, -, -, -, -, -, -, e0, e1, e2⟩ := idx_facts t
  funext y
  obtain ⟨w, i, o, rfl⟩ : ∃ (w : Fin 16) (i : Fin 49) (o : Fin 256), y = ix3 w i o := ⟨y 0, y 1, y 2, eq_ix3 y⟩
  have hN : cfg0.N = 256 := N_0
  have hW : t.val * 16 + w.val < 4096 := by have := t.isLt; have := w.isLt; omega
  refine (tile_apply (iblk m c 0 t) (iblk m c 1 t) (iblk m c 2 t)
    (View.ld (iblk m c 3 t) r0_2) (View.ld (iblk m c 3 t) r0_3) (View.ld (iblk m c 3 t) r0_4) (View.ld (iblk m c 3 t) r0_5)
    (View.ld (iblk m c 3 t) r0_6) (View.ld (iblk m c 3 t) r0_7) (View.ld (iblk m c 3 t) r0_8) (View.ld (iblk m c 3 t) r0_9) w i o).trans ?_
  have hP : projK (iblk m c 0 t) (iblk m c 1 t) w
      = Attn.proj (fun i e => (V m c main_v0 : Vec Ideal S4096x49x256 .f32) (ix3 ⟨t.val * 16 + w.val, hW⟩ i e))
          (fun n e => (V m c main_v2 : Vec Ideal S256x768 .bf16) (ix2 e n)) := by
    unfold projK
    refine congrArg₂ Attn.proj ?_ ?_
    · funext i e; exact iblk0_apply m c t w i e ⟨t.val * 16 + w.val, hW⟩ rfl
    · funext n e; exact iblk1_apply m c t e n
  have hB : biasK (View.ld (iblk m c 3 t) r0_2) (View.ld (iblk m c 3 t) r0_3) (View.ld (iblk m c 3 t) r0_4) (View.ld (iblk m c 3 t) r0_5)
      (View.ld (iblk m c 3 t) r0_6) (View.ld (iblk m c 3 t) r0_7) (View.ld (iblk m c 3 t) r0_8) (View.ld (iblk m c 3 t) r0_9)
      = fun h i j => (V m c main_v12 : Vec Ideal S8x49x49 .f32) (ix3 h i j) := by
    funext h i j
    exact (bias_rows (iblk m c 3 t) h i j).trans (iblk3_apply m c t h i j)
  have hO : (fun (o e : Fin 256) => (iblk m c 2 t : Vec Ideal S256x256 .bf16) (ix2 e o))
      = fun o e => (V m c main_v4 : Vec Ideal S256x256 .bf16) (ix2 e o) := by
    funext o e; exact iblk2_apply m c t e o
  rw [hP, hB, hO]
  show _ = attnArr (V m c main_v0) (V m c main_v2) (V m c main_v4) (V m c main_v12) (((cfg0.win 4).blk t).view.emb (ix3 w i o))
  unfold attnArr
  have hE : ((cfg0.win 4).blk t).view.emb (ix3 w i o) = (ix3 ⟨t.val * 16 + w.val, hW⟩ i o : S4096x49x256.Idx) := by
    funext a
    apply Fin.ext
    match a with
    | ⟨0, _⟩ => show win0_4.index t (0 : Fin 3) * 16 + 1 * w.val = t.val * 16 + w.val; rw [e0]; omega
    | ⟨1, _⟩ => show win0_4.index t (1 : Fin 3) * 49 + 1 * i.val = i.val; rw [e1]; omega
    | ⟨2, _⟩ => show win0_4.index t (2 : Fin 3) * 256 + 1 * o.val = o.val; rw [e2]; omega
  rw [hE]
  rfl

theorem mem_blk (t : Fin cfg0.N) (i : S4096x49x256.Idx) :
    i ∈ ((cfg0.win 4).blk t).view.set ↔ ∀ a : Fin 3, win0_4.index t a * S16x49x256.size a ≤ (i a).val
      ∧ (i a).val < win0_4.index t a * S16x49x256.size a + S16x49x256.size a := by
  show i ∈ ((View.whole main_v13).slice (win0_4.rect t)).set ↔ _
  rw [View.set_slice_whole, Rect.mem_set_unit]
  exact Iff.rfl

/-- Row `r` of the result lies in the block of point `r / 16`. -/
theorem cover (i : S4096x49x256.Idx) :
    ∃ t : Fin cfg0.N, (cfg0.win 4).flush t = true ∧ i ∈ ((cfg0.win 4).blk t).view.set := by
  have hN : cfg0.N = 256 := N_0
  have h0 : (i 0).val < 4096 := (i 0).isLt
  have h1 : (i 1).val < 49 := (i 1).isLt
  have h2 : (i 2).val < 256 := (i 2).isLt
  obtain ⟨-, -, -, -, -, -, -, -, -, -, e0, e1, e2⟩ := idx_facts ⟨(i 0).val / 16, by rw [hN]; omega⟩
  refine ⟨⟨(i 0).val / 16, by rw [hN]; omega⟩, flush0_4 _, ?_⟩
  rw [mem_blk]
  intro a
  match a with
  | ⟨0, _⟩ =>
    show win0_4.index _ (0 : Fin 3) * 16 ≤ (i 0).val ∧ (i 0).val < win0_4.index _ (0 : Fin 3) * 16 + 16
    rw [e0]; show (i 0).val / 16 * 16 ≤ (i 0).val ∧ (i 0).val < (i 0).val / 16 * 16 + 16; omega
  | ⟨1, _⟩ =>
    show win0_4.index _ (1 : Fin 3) * 49 ≤ (i 1).val ∧ (i 1).val < win0_4.index _ (1 : Fin 3) * 49 + 49
    rw [e1]; omega
  | ⟨2, _⟩ =>
    show win0_4.index _ (2 : Fin 3) * 256 ≤ (i 2).val ∧ (i 2).val < win0_4.index _ (2 : Fin 3) * 256 + 256
    rw [e2]; omega

/-- The result array after the last point. -/
theorem final (c : Dev nD) :
    (dats m 0 c).arrAt 4 cfg0.N = attnArr (V m c main_v0) (V m c main_v2) (V m c main_v4) (V m c main_v12) :=
  (dats m 0 c).arrAt_eq_of_cover 4 _ (fun t _ => flushed_eq m c t) cover

end Cert.KernelIdeal.Arr

end
-- ==== Proof.KernelRun.lean ====
/-
  The kernel's run with its result named.  The region finds the tokens with their two leading axes merged, the
  two weight matrices transposed, and the bias gathered from its table by the index array (a negative index counted
  from the table's end) and moved head-first; after the region the 4096 × 49 × 256 array is viewed as
  16 × 256 × 49 × 256.  So every weakly fair execution ends with the result at that view of the attention array of
  those four re-laid arguments, and the arguments unchanged.
-/
import proofs.«144305_j62362925138373_2_alg».proof.Proof.KernelArray

set_option synthInstance.maxSize 4096
set_option maxRecDepth 16384

noncomputable section

namespace Cert.KernelIdeal.Arr

open Cert.KernelIdeal Cert.KernelIdeal.Gen Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The bias array the region finds, of the table and the index array: entry (h, i, j) is the table's row
    `indices (i, j)` (plus 169 when negative) at column h. -/
def biasTerm (a2 : (⟨S169x8, .f32⟩ : BufTy).Contents (Elt Ideal)) (a4 : (⟨S49x49, .i32⟩ : BufTy).Contents (Elt Ideal)) :
    (⟨S8x49x49, .f32⟩ : BufTy).Contents (Elt Ideal) :=
  transpose S8x49x49 [2, 0, 1]
    (Host.gather gather_S169x8_S49x49x1_S49x49x8_2_0_n_n_0_2_18 a2
      (broadcastInDim S49x49x1 ![0, 1] bcast_S49x49_S49x49x1_0_1
        (select (cmpi .slt a4 (broadcastInDim S49x49 ![] bcast_S_S49x49 (constantI S_ 32 0#32)))
          (addi a4 (broadcastInDim S49x49 ![] bcast_S_S49x49 (constantI S_ 32 169#32))) a4)))
    transposes_S49x49x8_S8x49x49_2_0_1

theorem V_v0 (c : Dev nD) :
    (V m c main_v0 : Vec Ideal S4096x49x256 .f32)
      = shapeCast S4096x49x256 (m ((c : Thread nD τ).loc main_arg0)) shapeCasts_S16x256x49x256_S4096x49x256 := by
  show StableHlo.after hostOps0 (fun b => m (c, b)) (Proc.devRef .tc main_v0) = _
  after_results
  rfl

theorem V_v2 (c : Dev nD) :
    (V m c main_v2 : Vec Ideal S256x768 .bf16)
      = (truncf .bf16 (transpose S256x768 [1, 0] (m ((c : Thread nD τ).loc main_arg1)) transposes_S768x256_S256x768_1_0) bitsLt_bf16_f32 : FVec Ideal S256x768 .bf16) := by
  show StableHlo.after hostOps0 (fun b => m (c, b)) (Proc.devRef .tc main_v2) = _
  after_results

theorem V_v4 (c : Dev nD) :
    (V m c main_v4 : Vec Ideal S256x256 .bf16)
      = (truncf .bf16 (transpose S256x256 [1, 0] (m ((c : Thread nD τ).loc main_arg3)) transposes_S256x256_S256x256_1_0) bitsLt_bf16_f32 : FVec Ideal S256x256 .bf16) := by
  show StableHlo.after hostOps0 (fun b => m (c, b)) (Proc.devRef .tc main_v4) = _
  after_results

theorem V_v12 (c : Dev nD) :
    (V m c main_v12 : Vec Ideal S8x49x49 .f32)
      = biasTerm (m ((c : Thread nD τ).loc main_arg2)) (m ((c : Thread nD τ).loc main_arg4)) := by
  show StableHlo.after hostOps0 (fun b => m (c, b)) (Proc.devRef .tc main_v12) = _
  after_results
  rfl

/-- The result of the four re-laid arguments. -/
def resultK (a0 : (⟨S16x256x49x256, .f32⟩ : BufTy).Contents (Elt Ideal)) (a1 : (⟨S768x256, .f32⟩ : BufTy).Contents (Elt Ideal))
    (a2 : (⟨S169x8, .f32⟩ : BufTy).Contents (Elt Ideal)) (a3 : (⟨S256x256, .f32⟩ : BufTy).Contents (Elt Ideal))
    (a4 : (⟨S49x49, .i32⟩ : BufTy).Contents (Elt Ideal)) : (⟨S16x256x49x256, .f32⟩ : BufTy).Contents (Elt Ideal) :=
  shapeCast S16x256x49x256
    (attnArr (shapeCast S4096x49x256 a0 shapeCasts_S16x256x49x256_S4096x49x256)
      (truncf .bf16 (transpose S256x768 [1, 0] a1 transposes_S768x256_S256x768_1_0) bitsLt_bf16_f32 : FVec Ideal S256x768 .bf16)
      (truncf .bf16 (transpose S256x256 [1, 0] a3 transposes_S256x256_S256x256_1_0) bitsLt_bf16_f32 : FVec Ideal S256x256 .bf16)
      (biasTerm a2 a4))
    shapeCasts_S4096x49x256_S16x256x49x256

/-- After the region the result is the final array viewed as 16 × 256 × 49 × 256. -/
theorem tail_eq (c : Dev nD) :
    Pipeline.afterTail₀ cfgs (dats m) 0 (V0 m) [hostOps1] c main_v14
      = resultK (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀ resultK
  rw [← V_v0 m c, ← V_v2 m c, ← V_v4 m c, ← V_v12 m c, ← final m c]
  show StableHlo.after hostOps1 _ (Proc.devRef .tc main_v14) = _
  after_results
  refine congrArg (fun X => shapeCast S16x256x49x256 X shapeCasts_S4096x49x256_S16x256x49x256) ?_
  exact Pipeline.withArrays_arr spec0 launch0.win.arr_inj c _ _ 4

/-- THE RUN, READ: the result at `resultK` of the arguments, the arguments unchanged. -/
theorem run : θ_run defs (onTc (τ := τ) (main (F := Ideal))) ⟨m, fun _ => 0, ρ⟩ fun r => ∀ c : Dev nD,
      r.2.mem ((c.tc : Thread nD τ).loc main_v14)
        = resultK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.RefValue.lean ====
/-
  The reference read at an index on the extended reals.  Its stages are the textbook ones: the tokens of
  window (B, N) projected by the 768 × 256 matrix; the projection's columns split into section, head and
  coordinate and moved head-first; per head the inner products of queries and keys, times the scale, plus the
  bias gathered from its table; each row's maximum, exp of the difference, the row sum, the quotient; the weighted
  sum of the values; the heads side by side again; the output matrix.  Entry (B, N, i, o) of the result is the
  attention of window (B, N) at token i, column o, with the scale applied to the finished inner product.
-/
import proofs.«144305_j62362925138373_2_alg».proof.Proof.Gen.ReferenceIdeal.Read
import proofs.«144305_j62362925138373_2_alg».proof.Proof.AttnSpec
import Idealize.ShloMosaic.Lib.ValueIdxRank6
import Idealize.ShloMosaic.Lib.ValueLayout

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S16x256x49x256, .f32⟩ : BufTy).Contents (Elt Ideal)) (x1 : (⟨S768x256, .f32⟩ : BufTy).Contents (Elt Ideal))
  (x2 : (⟨S169x8, .f32⟩ : BufTy).Contents (Elt Ideal)) (x3 : (⟨S256x256, .f32⟩ : BufTy).Contents (Elt Ideal))
  (x4 : (⟨S49x49, .i32⟩ : BufTy).Contents (Elt Ideal))

/-- Window (B, N): its tokens projected into queries, keys and values. -/
def projR (B : Fin 16) (N : Fin 256) : Fin 49 → Fin 768 → EReal :=
  Attn.proj (fun i e => x0 (ix4 B N i e)) (fun n e => x1 (ix2 n e))

/-- The bias of head `h` at tokens `(i, j)`: the gathered table moved head-first. -/
def biasR (h : Fin 8) (i j : Fin 49) : EReal := val_main_v20 (F := Ideal) x2 x4 (ix3 h i j)

theorem v0_at (B : Fin 16) (N : Fin 256) (i : Fin 49) (n : Fin 768) :
    val_main_v0 (F := Ideal) x0 x1 (ix4 B N i n) = projR x0 x1 B N i n := by
  refine (val_main_v0_apply x0 x1 _).trans ?_
  unfold projR Attn.proj
  refine Finset.sum_congr rfl fun e _ => congrArg₂ (· * ·) (congrArg x0 ?_) (congrArg x1 ?_)
  · exact (funext fun a => by
      match a with
      | ⟨0, _⟩ => rfl
      | ⟨1, _⟩ => rfl
      | ⟨2, _⟩ => rfl
      | ⟨3, _⟩ => rfl)
  · exact (funext fun a => by
      match a with
      | ⟨0, _⟩ => rfl
      | ⟨1, _⟩ => rfl)

/-- The projection's column s · 256 + h · 32 + d is coordinate d of head h in section s. -/
theorem v1_at (B : Fin 16) (N : Fin 256) (i : Fin 49) (s : Fin 3) (h : Fin 8) (d : Fin 32) (n : Fin 768)
    (hn : n.val = s.val * 256 + h.val * 32 + d.val) :
    val_main_v1 (F := Ideal) x0 x1 (ix6 B N i s h d) = projR x0 x1 B N i n := by
  unfold val_main_v1
  refine (shapeCast_apply _ shapeCasts_S16x256x49x768_S16x256x49x3x8x32 (ix6 B N i s h d) (ix4 B N i n) (by
    rw [Shape.rowMajor_val_four, Shape.rowMajor_val_six]
    show ((B.val * 256 + N.val) * 49 + i.val) * 768 + n.val
      = ((((B.val * 256 + N.val) * 49 + i.val) * 3 + s.val) * 8 + h.val) * 32 + d.val
    omega)).trans ?_
  exact v0_at x0 x1 B N i n

/-- Section `s` of the head-first array. -/
theorem v3_at (B : Fin 16) (N : Fin 256) (i : Fin 49) (s : Fin 3) (h : Fin 8) (d : Fin 32) (n : Fin 768)
    (hn : n.val = s.val * 256 + h.val * 32 + d.val) :
    val_main_v3 (F := Ideal) x0 x1 (ix6 s B N h i d) = projR x0 x1 B N i n := by
  refine (val_main_v3_apply x0 x1 _).trans ?_
  refine (val_main_v2_apply x0 x1 _).trans ?_
  refine Eq.trans (congrArg (val_main_v1 (F := Ideal) x0 x1) ?_) (v1_at x0 x1 B N i s h d n hn)
  exact (funext fun a => by
      match a with
      | ⟨0, _⟩ => rfl
      | ⟨1, _⟩ => rfl
      | ⟨2, _⟩ => rfl
      | ⟨3, _⟩ => rfl
      | ⟨4, _⟩ => rfl
      | ⟨5, _⟩ => rfl)

theorem drop_lead (y : (⟨S1x16x256x8x49x32, .f32⟩ : BufTy).Contents (Elt Ideal)) (B : Fin 16) (N : Fin 256) (h : Fin 8) (i : Fin 49) (d : Fin 32) :
    shapeCast S16x256x8x49x32 y shapeCasts_S1x16x256x8x49x32_S16x256x8x49x32 (ix5 B N h i d) = y (ix6 (0 : Fin 1) B N h i d) :=
  shapeCast_apply y shapeCasts_S1x16x256x8x49x32_S16x256x8x49x32 (ix5 B N h i d) (ix6 (0 : Fin 1) B N h i d) (by
    rw [Shape.rowMajor_val_six, Shape.rowMajor_val_five]
    show ((((0 * 16 + B.val) * 256 + N.val) * 8 + h.val) * 49 + i.val) * 32 + d.val
      = (((B.val * 256 + N.val) * 8 + h.val) * 49 + i.val) * 32 + d.val
    omega)

theorem v5_at (B : Fin 16) (N : Fin 256) (h : Fin 8) (i : Fin 49) (d : Fin 32) :
    val_main_v5 (F := Ideal) x0 x1 (ix5 B N h i d) = projR x0 x1 B N i (Attn.qcol h d) := by
  unfold val_main_v5
  refine (drop_lead _ B N h i d).trans ?_
  refine (val_main_v4_apply x0 x1 _).trans ?_
  refine Eq.trans (congrArg (val_main_v3 (F := Ideal) x0 x1) ?_) (v3_at x0 x1 B N i 0 h d (Attn.qcol h d) (by simp [Attn.qcol]))
  exact (funext fun a => by
      match a with
      | ⟨0, _⟩ => rfl
      | ⟨1, _⟩ => rfl
      | ⟨2, _⟩ => rfl
      | ⟨3, _⟩ => rfl
      | ⟨4, _⟩ => rfl
      | ⟨5, _⟩ => rfl)

theorem v7_at (B : Fin 16) (N : Fin 256) (h : Fin 8) (i : Fin 49) (d : Fin 32) :
    val_main_v7 (F := Ideal) x0 x1 (ix5 B N h i d) = projR x0 x1 B N i (Attn.kcol h d) := by
  unfold val_main_v7
  refine (drop_lead _ B N h i d).trans ?_
  refine (val_main_v6_apply x0 x1 _).trans ?_
  refine Eq.trans (congrArg (val_main_v3 (F := Ideal) x0 x1) ?_) (v3_at x0 x1 B N i 1 h d (Attn.kcol h d) (by simp [Attn.kcol]))
  exact (funext fun a => by
      match a with
      | ⟨0, _⟩ => rfl
      | ⟨1, _⟩ => rfl
      | ⟨2, _⟩ => rfl
      | ⟨3, _⟩ => rfl
      | ⟨4, _⟩ => rfl
      | ⟨5, _⟩ => rfl)

theorem v9_at (B : Fin 16) (N : Fin 256) (h : Fin 8) (i : Fin 49) (d : Fin 32) :
    val_main_v9 (F := Ideal) x0 x1 (ix5 B N h i d) = projR x0 x1 B N i (Attn.vcol h d) := by
  unfold val_main_v9
  refine (drop_lead _ B N h i d).trans ?_
  refine (val_main_v8_apply x0 x1 _).trans ?_
  refine Eq.trans (congrArg (val_main_v3 (F := Ideal) x0 x1) ?_) (v3_at x0 x1 B N i 2 h d (Attn.vcol h d) (by simp [Attn.vcol]))
  exact (funext fun a => by
      match a with
      | ⟨0, _⟩ => rfl
      | ⟨1, _⟩ => rfl
      | ⟨2, _⟩ => rfl
      | ⟨3, _⟩ => rfl
      | ⟨4, _⟩ => rfl
      | ⟨5, _⟩ => rfl)

/-- The scores: inner product times the scale, plus the bias. -/
theorem v23_at (B : Fin 16) (N : Fin 256) (h : Fin 8) (i j : Fin 49) :
    val_main_v23 (F := Ideal) x0 x1 x2 x4 (ix5 B N h i j) = Attn.scoreS (Ideal.ofBits .f32 0x3E3504F3#32) (projR x0 x1 B N) (biasR x2 x4) h i j := by
  refine (val_main_v23_apply x0 x1 x2 x4 _).trans ?_
  unfold Attn.scoreS biasR
  refine congrArg₂ (fun a b : EReal => a + b) ?_ ?_
  · refine (val_main_v12_apply x0 x1 _).trans ?_
    refine congrArg₂ (fun a b : EReal => a * b) ?_ ?_
    · refine (val_main_v10_apply x0 x1 _).trans ?_
      refine Finset.sum_congr rfl fun d _ => congrArg₂ (fun a b : EReal => a * b) ?_ ?_
      · exact Eq.trans (congrArg (val_main_v5 (F := Ideal) x0 x1) (funext fun a => by
      match a with
      | ⟨0, _⟩ => rfl
      | ⟨1, _⟩ => rfl
      | ⟨2, _⟩ => rfl
      | ⟨3, _⟩ => rfl
      | ⟨4, _⟩ => rfl)) (v5_at x0 x1 B N h i d)
      · exact Eq.trans (congrArg (val_main_v7 (F := Ideal) x0 x1) (funext fun a => by
      match a with
      | ⟨0, _⟩ => rfl
      | ⟨1, _⟩ => rfl
      | ⟨2, _⟩ => rfl
      | ⟨3, _⟩ => rfl
      | ⟨4, _⟩ => rfl)) (v7_at x0 x1 B N h j d)
    · exact (val_main_v11_apply _).trans (val_main_cst_apply _)
  · refine (val_main_v22_apply x2 x4 _).trans ?_
    refine (val_main_v21_apply x2 x4 _).trans ?_
    exact congrArg (val_main_v20 (F := Ideal) x2 x4) (funext fun a => by
      match a with
      | ⟨0, _⟩ => rfl
      | ⟨1, _⟩ => rfl
      | ⟨2, _⟩ => rfl)

/-- The row maximum. -/
theorem v26_at (B : Fin 16) (N : Fin 256) (h : Fin 8) (i : Fin 49) :
    val_main_v26 (F := Ideal) x0 x1 x2 x4 (ix4 B N h i)
      = (Finset.univ : Finset (Fin 49)).fold max (Ideal.ofBits .f32 0xFF800000#32) (Attn.scoreS (Ideal.ofBits .f32 0x3E3504F3#32) (projR x0 x1 B N) (biasR x2 x4) h i) := by
  refine (val_main_v26_apply x0 x1 x2 x4 _).trans ?_
  have h24 : val_main_v24 (F := Ideal) x0 x1 x2 x4 (ix4 B N h i)
      = (Finset.univ : Finset (Fin 49)).fold max (Ideal.ofBits .f32 0xFF800000#32) (Attn.scoreS (Ideal.ofBits .f32 0x3E3504F3#32) (projR x0 x1 B N) (biasR x2 x4) h i) := by
    unfold val_main_v24
    refine (Host.reduce_eq_fold_single (FloatOps.maximumf (F := Ideal) (φ := .f32)) (val_main_v23 (F := Ideal) x0 x1 x2 x4)
      (val_main_cst_1 (F := Ideal)) reducesTo_S16x256x8x49x49_S16x256x8x49_d4 (by decide) h_S_ (ix4 B N h i)).trans ?_
    refine congrArg (fun f => Finset.fold max (Ideal.ofBits .f32 0xFF800000#32) f (Finset.univ : Finset (Fin 49))) (funext fun k => ?_)
    refine Eq.trans (congrArg (val_main_v23 (F := Ideal) x0 x1 x2 x4) (funext fun d => Fin.ext ?_)) (v23_at x0 x1 x2 x4 B N h i k)
    match d with
    | ⟨0, _⟩ => rfl
    | ⟨1, _⟩ => rfl
    | ⟨2, _⟩ => rfl
    | ⟨3, _⟩ => rfl
    | ⟨4, _⟩ => rfl
  rw [h24]
  refine Eq.trans (congrArg (fun a : EReal => max a _) ((val_main_v25_apply _).trans (val_main_cst_2_apply _))) ?_
  exact Attn.max_fold_self _ _

/-- exp of the score less the row maximum. -/
theorem v30_at (B : Fin 16) (N : Fin 256) (h : Fin 8) (i j : Fin 49) :
    val_main_v30 (F := Ideal) x0 x1 x2 x4 (ix5 B N h i j)
      = Ideal.exp (Attn.scoreS (Ideal.ofBits .f32 0x3E3504F3#32) (projR x0 x1 B N) (biasR x2 x4) h i j
          - (Finset.univ : Finset (Fin 49)).fold max (Ideal.ofBits .f32 0xFF800000#32) (Attn.scoreS (Ideal.ofBits .f32 0x3E3504F3#32) (projR x0 x1 B N) (biasR x2 x4) h i)) := by
  refine (val_main_v30_apply x0 x1 x2 x4 _).trans (congrArg Ideal.exp ?_)
  refine (val_main_v29_apply x0 x1 x2 x4 _).trans ?_
  refine congrArg₂ (fun a b : EReal => a - b) (v23_at x0 x1 x2 x4 B N h i j) ?_
  refine (val_main_v28_apply x0 x1 x2 x4 _).trans ?_
  refine (val_main_v27_apply x0 x1 x2 x4 _).trans ?_
  exact Eq.trans (congrArg (val_main_v26 (F := Ideal) x0 x1 x2 x4) (funext fun a => by
      match a with
      | ⟨0, _⟩ => rfl
      | ⟨1, _⟩ => rfl
      | ⟨2, _⟩ => rfl
      | ⟨3, _⟩ => rfl)) (v26_at x0 x1 x2 x4 B N h i)

/-- The row sum of the exps. -/
theorem v31_at (B : Fin 16) (N : Fin 256) (h : Fin 8) (i : Fin 49) :
    val_main_v31 (F := Ideal) x0 x1 x2 x4 (ix4 B N h i)
      = ∑ k : Fin 49, Ideal.exp (Attn.scoreS (Ideal.ofBits .f32 0x3E3504F3#32) (projR x0 x1 B N) (biasR x2 x4) h i k
          - (Finset.univ : Finset (Fin 49)).fold max (Ideal.ofBits .f32 0xFF800000#32) (Attn.scoreS (Ideal.ofBits .f32 0x3E3504F3#32) (projR x0 x1 B N) (biasR x2 x4) h i)) := by
  refine (val_main_v31_apply x0 x1 x2 x4 _).trans ?_
  rw [val_main_cst_3_apply]
  refine Eq.trans (congrArg (fun a : EReal => a + _) Ideal.ofBits_zero_f32) ?_
  rw [zero_add]
  refine Finset.sum_congr rfl fun k _ => ?_
  exact Eq.trans (congrArg (val_main_v30 (F := Ideal) x0 x1 x2 x4) (funext fun a => by
      match a with
      | ⟨0, _⟩ => rfl
      | ⟨1, _⟩ => rfl
      | ⟨2, _⟩ => rfl
      | ⟨3, _⟩ => rfl
      | ⟨4, _⟩ => rfl)) (v30_at x0 x1 x2 x4 B N h i k)

/-- The weights. -/
theorem v34_at (B : Fin 16) (N : Fin 256) (h : Fin 8) (i j : Fin 49) :
    val_main_v34 (F := Ideal) x0 x1 x2 x4 (ix5 B N h i j)
      = Attn.weights (Ideal.ofBits .f32 0xFF800000#32) (Attn.scoreS (Ideal.ofBits .f32 0x3E3504F3#32) (projR x0 x1 B N) (biasR x2 x4) h i) j := by
  refine (val_main_v34_apply x0 x1 x2 x4 _).trans ?_
  unfold Attn.weights
  refine congrArg₂ Ideal.div (v30_at x0 x1 x2 x4 B N h i j) ?_
  refine (val_main_v33_apply x0 x1 x2 x4 _).trans ?_
  refine (val_main_v32_apply x0 x1 x2 x4 _).trans ?_
  exact Eq.trans (congrArg (val_main_v31 (F := Ideal) x0 x1 x2 x4) (funext fun a => by
      match a with
      | ⟨0, _⟩ => rfl
      | ⟨1, _⟩ => rfl
      | ⟨2, _⟩ => rfl
      | ⟨3, _⟩ => rfl)) (v31_at x0 x1 x2 x4 B N h i)

/-- One head's output. -/
theorem v35_at (B : Fin 16) (N : Fin 256) (h : Fin 8) (i : Fin 49) (d : Fin 32) :
    val_main_v35 (F := Ideal) x0 x1 x2 x4 (ix5 B N h i d)
      = Attn.head (Ideal.ofBits .f32 0xFF800000#32) (Attn.scoreS (Ideal.ofBits .f32 0x3E3504F3#32) (projR x0 x1 B N) (biasR x2 x4) h) (fun j d => projR x0 x1 B N j (Attn.vcol h d)) i d := by
  refine (val_main_v35_apply x0 x1 x2 x4 _).trans ?_
  unfold Attn.head
  refine Finset.sum_congr rfl fun j _ => congrArg₂ (fun a b : EReal => a * b) ?_ ?_
  · exact Eq.trans (congrArg (val_main_v34 (F := Ideal) x0 x1 x2 x4) (funext fun a => by
      match a with
      | ⟨0, _⟩ => rfl
      | ⟨1, _⟩ => rfl
      | ⟨2, _⟩ => rfl
      | ⟨3, _⟩ => rfl
      | ⟨4, _⟩ => rfl)) (v34_at x0 x1 x2 x4 B N h i j)
  · exact Eq.trans (congrArg (val_main_v9 (F := Ideal) x0 x1) (funext fun a => by
      match a with
      | ⟨0, _⟩ => rfl
      | ⟨1, _⟩ => rfl
      | ⟨2, _⟩ => rfl
      | ⟨3, _⟩ => rfl
      | ⟨4, _⟩ => rfl)) (v9_at x0 x1 B N h j d)

/-- The heads side by side: column e belongs to head e / 32, coordinate e mod 32. -/
theorem v37_at (B : Fin 16) (N : Fin 256) (i : Fin 49) (e : Fin 256) :
    val_main_v37 (F := Ideal) x0 x1 x2 x4 (ix4 B N i e)
      = Attn.head (Ideal.ofBits .f32 0xFF800000#32) (Attn.scoreS (Ideal.ofBits .f32 0x3E3504F3#32) (projR x0 x1 B N) (biasR x2 x4) (Attn.headOf e))
          (fun j d => projR x0 x1 B N j (Attn.vcol (Attn.headOf e) d)) i (Attn.coordOf e) := by
  unfold val_main_v37
  refine (shapeCast_apply _ shapeCasts_S16x256x49x8x32_S16x256x49x256 (ix4 B N i e) (ix5 B N i (Attn.headOf e) (Attn.coordOf e)) (by
    rw [Shape.rowMajor_val_five, Shape.rowMajor_val_four]
    show (((B.val * 256 + N.val) * 49 + i.val) * 8 + e.val / 32) * 32 + e.val % 32 = ((B.val * 256 + N.val) * 49 + i.val) * 256 + e.val
    omega)).trans ?_
  refine (val_main_v36_apply x0 x1 x2 x4 _).trans ?_
  exact Eq.trans (congrArg (val_main_v35 (F := Ideal) x0 x1 x2 x4) (funext fun a => by
      match a with
      | ⟨0, _⟩ => rfl
      | ⟨1, _⟩ => rfl
      | ⟨2, _⟩ => rfl
      | ⟨3, _⟩ => rfl
      | ⟨4, _⟩ => rfl)) (v35_at x0 x1 x2 x4 B N (Attn.headOf e) i (Attn.coordOf e))

/-- ENTRY (B, N, i, o) OF THE REFERENCE'S RESULT is the attention of window (B, N) at token i, column o, the scale
    applied to the inner product. -/
theorem result_at (B : Fin 16) (N : Fin 256) (i : Fin 49) (o : Fin 256) :
    val_main_v38 (F := Ideal) x0 x1 x2 x3 x4 (ix4 B N i o)
      = Attn.window (Ideal.ofBits .f32 0xFF800000#32) (Attn.scoreS (Ideal.ofBits .f32 0x3E3504F3#32) (projR x0 x1 B N) (biasR x2 x4)) (projR x0 x1 B N) (fun o e => x3 (ix2 o e)) i o := by
  refine (val_main_v38_apply x0 x1 x2 x3 x4 _).trans ?_
  unfold Attn.window
  refine Finset.sum_congr rfl fun e _ => congrArg₂ (fun a b : EReal => a * b) ?_ (congrArg x3 ?_)
  · exact Eq.trans (congrArg (val_main_v37 (F := Ideal) x0 x1 x2 x4) (funext fun a => by
      match a with
      | ⟨0, _⟩ => rfl
      | ⟨1, _⟩ => rfl
      | ⟨2, _⟩ => rfl
      | ⟨3, _⟩ => rfl)) (v37_at x0 x1 x2 x4 B N i e)
  · exact (funext fun a => by
      match a with
      | ⟨0, _⟩ => rfl
      | ⟨1, _⟩ => rfl)

end Cert.ReferenceIdeal.RefValue

end
-- ==== Proof.Bridge.lean ====
/-
  The kernel's result and the reference's result are one function of the arguments.  Entry (B, N, i, o) of the
  kernel's result is entry (B · 256 + N, i, o) of its 4096-window array: the attention of the tokens of window
  (B, N) — merging the two leading axes and splitting them again is the identity on windows —, with the
  projection and output matrices read transposed twice, hence as given, and with the very bias array the reference
  gathers.  The only difference left is where the scale sits: folded into the queries on one side, applied to the
  inner product on the other; the scale is a nonnegative finite number, so the two agree on every extended real.
-/
import proofs.«144305_j62362925138373_2_alg».proof.Proof.KernelRun
import proofs.«144305_j62362925138373_2_alg».proof.Proof.RefValue

set_option maxRecDepth 16384

noncomputable section

namespace Cert.Bridge

open Idealize.ShloMosaic Idealize.ShloMosaic.ValueIdx

/-- The bias array is the same term on both sides. -/
theorem bias_eq (a2 : (⟨Cert.KernelIdeal.S169x8, .f32⟩ : BufTy).Contents (Elt Ideal)) (a4 : (⟨Cert.KernelIdeal.S49x49, .i32⟩ : BufTy).Contents (Elt Ideal)) :
    Cert.KernelIdeal.Arr.biasTerm a2 a4 = Cert.ReferenceIdeal.Read.val_main_v20 (F := Ideal) a2 a4 := rfl

theorem result_eq (a0 : (⟨Cert.KernelIdeal.S16x256x49x256, .f32⟩ : BufTy).Contents (Elt Ideal)) (a1 : (⟨Cert.KernelIdeal.S768x256, .f32⟩ : BufTy).Contents (Elt Ideal))
    (a2 : (⟨Cert.KernelIdeal.S169x8, .f32⟩ : BufTy).Contents (Elt Ideal)) (a3 : (⟨Cert.KernelIdeal.S256x256, .f32⟩ : BufTy).Contents (Elt Ideal))
    (a4 : (⟨Cert.KernelIdeal.S49x49, .i32⟩ : BufTy).Contents (Elt Ideal)) :
    Cert.KernelIdeal.Arr.resultK a0 a1 a2 a3 a4 = Cert.ReferenceIdeal.Read.val_main_v38 (F := Ideal) a0 a1 a2 a3 a4 := by
  funext idx
  obtain ⟨B, N, i, o, rfl⟩ : ∃ (B : Fin 16) (N : Fin 256) (i : Fin 49) (o : Fin 256), idx = ix4 B N i o :=
    ⟨idx 0, idx 1, idx 2, idx 3, eq_ix4 idx⟩
  have hW : B.val * 256 + N.val < 4096 := by have := B.isLt; have := N.isLt; omega
  refine Eq.trans ?_ (Cert.ReferenceIdeal.RefValue.result_at a0 a1 a2 a3 a4 B N i o).symm
  unfold Cert.KernelIdeal.Arr.resultK
  refine (shapeCast_apply _ Cert.KernelIdeal.Gen.shapeCasts_S4096x49x256_S16x256x49x256 (ix4 B N i o) (ix3 ⟨B.val * 256 + N.val, hW⟩ i o) (by
    rw [Shape.rowMajor_val_three, Shape.rowMajor_val_four]
    rfl)).trans ?_
  show Cert.KernelIdeal.Arr.attnAt _ _ _ _ ⟨B.val * 256 + N.val, hW⟩ i o = _
  unfold Cert.KernelIdeal.Arr.attnAt
  have hP : Attn.proj (fun i e => shapeCast Cert.KernelIdeal.S4096x49x256 a0 Cert.KernelIdeal.Gen.shapeCasts_S16x256x49x256_S4096x49x256 (ix3 ⟨B.val * 256 + N.val, hW⟩ i e))
      (fun n e => (truncf .bf16 (transpose Cert.KernelIdeal.S256x768 [1, 0] a1 Cert.KernelIdeal.Gen.transposes_S768x256_S256x768_1_0) Cert.KernelIdeal.Gen.bitsLt_bf16_f32 : FVec Ideal Cert.KernelIdeal.S256x768 .bf16) (ix2 e n))
      = Cert.ReferenceIdeal.RefValue.projR a0 a1 B N := by
    unfold Cert.ReferenceIdeal.RefValue.projR
    refine congrArg₂ Attn.proj ?_ ?_
    · funext i e
      exact shapeCast_apply a0 Cert.KernelIdeal.Gen.shapeCasts_S16x256x49x256_S4096x49x256 (ix3 ⟨B.val * 256 + N.val, hW⟩ i e) (ix4 B N i e) (by
        rw [Shape.rowMajor_val_four, Shape.rowMajor_val_three]
        rfl)
    · funext n e
      exact (truncf_apply (ψ := .bf16) _ Cert.KernelIdeal.Gen.bitsLt_bf16_f32 _).trans (transpose_ix2_apply a1 Cert.KernelIdeal.Gen.transposes_S768x256_S256x768_1_0 e n)
  have hO : (fun (o e : Fin 256) => (truncf .bf16 (transpose Cert.KernelIdeal.S256x256 [1, 0] a3 Cert.KernelIdeal.Gen.transposes_S256x256_S256x256_1_0) Cert.KernelIdeal.Gen.bitsLt_bf16_f32 : FVec Ideal Cert.KernelIdeal.S256x256 .bf16) (ix2 e o))
      = fun o e => a3 (ix2 o e) := by
    funext o e
    exact (truncf_apply (ψ := .bf16) _ Cert.KernelIdeal.Gen.bitsLt_bf16_f32 _).trans (transpose_ix2_apply a3 Cert.KernelIdeal.Gen.transposes_S256x256_S256x256_1_0 e o)
  have hB : (fun (h : Fin 8) (i j : Fin 49) => Cert.KernelIdeal.Arr.biasTerm a2 a4 (ix3 h i j)) = Cert.ReferenceIdeal.RefValue.biasR a2 a4 := rfl
  rw [hP, hO, hB, Attn.scoreQ_eq_scoreS Attn.scale_nonneg Attn.scale_ne_top]

end Cert.Bridge

end
-- ==== Proof.lean ====
/-
  Windowed multi-head attention with a relative-position bias, as one tiled kernel, against its plain reference,
  on the extended reals.  16 · 256 windows of 49 tokens with 256 features; 8 heads of 32 coordinates.

  Both programs compute, for every window: the tokens projected into queries, keys and values by one 768 × 256
  matrix; per head the scores q · k scaled by one constant c, plus a bias gathered from a 169 × 8 table through a
  49 × 49 index array; each row of scores turned into weights exp (s − max) / Σ exp (s − max); the weighted sum of
  the values; the heads side by side times a 256 × 256 output matrix.  The kernel works on tiles of 16 windows, one
  per grid point, with the matrices transposed beforehand and the scale folded into the queries; its 256 blocks
  tile the result.  The reference works on the whole array and scales the finished inner product.  Format changes
  are the identity on the extended reals and every product is a finite sum, so entry by entry the two results
  are the same expression except for where the scale sits:  Σ_d (q_d · c) · k_d  against  (Σ_d q_d · k_d) · c.
  The constant c is the word 0x3E3504F3 on both sides, a nonnegative finite number; multiplication on the
  extended reals is commutative and associative, and multiplication by such a c distributes over any finite sum,
  infinite terms included.  So the results agree for every input, and the precondition is not used.

  The kernel's idealization rewrote nothing, so the conjunct relating the kernel to its idealization is trivial.
-/
import proofs.«144305_j62362925138373_2_alg».proof.Defs
import proofs.«144305_j62362925138373_2_alg».proof.Proof.Gen.Kernel
import proofs.«144305_j62362925138373_2_alg».proof.Proof.Gen.Kernel.Skeleton
import proofs.«144305_j62362925138373_2_alg».proof.Proof.Gen.Kernel.Launch
import proofs.«144305_j62362925138373_2_alg».proof.Proof.Gen.Kernel.Points
import proofs.«144305_j62362925138373_2_alg».proof.Proof.Gen.Kernel.Frame
import proofs.«144305_j62362925138373_2_alg».proof.Proof.Gen.KernelIdeal
import proofs.«144305_j62362925138373_2_alg».proof.Proof.Gen.KernelIdeal.Skeleton
import proofs.«144305_j62362925138373_2_alg».proof.Proof.Gen.KernelIdeal.Launch
import proofs.«144305_j62362925138373_2_alg».proof.Proof.Gen.KernelIdeal.Points
import proofs.«144305_j62362925138373_2_alg».proof.Proof.Gen.KernelIdeal.Frame
import proofs.«144305_j62362925138373_2_alg».proof.Proof.Gen.ReferenceIdeal
import proofs.«144305_j62362925138373_2_alg».proof.Proof.Gen.ReferenceIdeal.Run
import proofs.«144305_j62362925138373_2_alg».proof.Proof.Gen.ReferenceIdeal.Read
import proofs.«144305_j62362925138373_2_alg».proof.Proof.Gen.Pre_finite_inputs
import proofs.«144305_j62362925138373_2_alg».proof.Proof.Bridge
import Idealize.ShloMosaic.Adequacy
import Idealize.ShloMosaic.Init

noncomputable section

namespace Cert.Proof

open Idealize.ShloMosaic Idealize.SL.Sem

/-- The kernel as printed terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a sequence of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's 256 blocks tile
    the attention array of the re-laid arguments, the reference's stages compose to the same attention, and the
    two placements of the scale agree. -/
theorem algebraic : Cert.algebraic_KernelIdeal_ReferenceIdeal := by
  intro m ρ m' ρ' _ hagree
  refine ⟨fun c => Cert.KernelIdeal.Arr.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1, (hagree c).2.2.2.2]
  exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
